-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x128 : Shape := ⟨3, ![4096, 64, 128]⟩
abbrev S128x8192 : Shape := ⟨2, ![128, 8192]⟩
abbrev S128 : Shape := ⟨1, ![128]⟩
abbrev S8192x128 : Shape := ⟨2, ![8192, 128]⟩
abbrev S8192 : Shape := ⟨1, ![8192]⟩
abbrev S_ : Shape := ⟨0, ![]⟩

class Facts : Prop where
  bcast_S_S4096x64x128 : S_.BroadcastsInDim S4096x64x128 (![] : Fin 0 → Fin S4096x64x128.rank)
  reducesTo_S4096x64x128_S_d0_1_2 : S4096x64x128.ReducesTo [0, 1, 2] S_
  h_S_ : 0 < S_.numel
  bcast_S_S128x8192 : S_.BroadcastsInDim S128x8192 (![] : Fin 0 → Fin S128x8192.rank)
  reducesTo_S128x8192_S_d0_1 : S128x8192.ReducesTo [0, 1] S_
  bcast_S_S128 : S_.BroadcastsInDim S128 (![] : Fin 0 → Fin S128.rank)
  reducesTo_S128_S_d0 : S128.ReducesTo [0] S_
  bcast_S_S8192x128 : S_.BroadcastsInDim S8192x128 (![] : Fin 0 → Fin S8192x128.rank)
  reducesTo_S8192x128_S_d0_1 : S8192x128.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_arg5 : FVec F S128 .f32) (main_arg6 : FVec F S128 .f32) (main_v13 : IVec S_ 1) (main_v16 : IVec S8192x128 1) : IVec S_ 1 :=
  let main_c_5 : IVec S_ 1 := constantI S_ 1 1#1
  let main_v17 : IVec S_ 1 := (fun x v => Host.reduce IntOp.andi x v reducesTo_S8192x128_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S4096x64x128 .f32) (main_arg1 : FVec F S128x8192 .f32) (main_arg2 : FVec F S128 .f32) (main_arg3 : FVec F S8192x128 .f32) (main_arg4 : FVec F S8192 .f32) (main_arg5 : FVec F S128 .f32) (main_arg6 : FVec F S128 .f32) : IVec S_ 1 :=
  let main_v0 : FVec F S4096x64x128 .f32 := Host.absf main_arg0
  let main_cst : FVec F S_ .f32 := constant S_ .f32 0x7F800000#32
  let main_v1 : FVec F S4096x64x128 .f32 := broadcastInDim S4096x64x128 ![] bcast_S_S4096x64x128 main_cst
  let main_v2 : IVec S4096x64x128 1 := cmpf .olt main_v0 main_v1
  let main_c : IVec S_ 1 := constantI S_ 1 1#1
  let main_v3 : IVec S_ 1 := (fun x v => Host.reduce IntOp.andi x v reducesTo_S4096x64x128_S_d0_1_2 h_S_) main_v2 main_c
  let main_v4 : FVec F S128x8192 .f32 := Host.absf main_arg1
  let main_cst_0 : FVec F S_ .f32 := constant S_ .f32 0x7F800000#32
  let main_v5 : FVec F S128x8192 .f32 := broadcastInDim S128x8192 ![] bcast_S_S128x8192 main_cst_0
  let main_v6 : IVec S128x8192 1 := cmpf .olt main_v4 main_v5
  let main_c_1 : IVec S_ 1 := constantI S_ 1 1#1
  let main_v7 : IVec S_ 1 := (fun x v => Host.reduce IntOp.andi x v reducesTo_S128x8192_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S8192x128 .f32 := Host.absf main_arg3
  let main_cst_4 : FVec F S_ .f32 := constant S_ .f32 0x7F800000#32
  let main_v15 : FVec F S8192x128 .f32 := broadcastInDim S8192x128 ![] bcast_S_S8192x128 main_cst_4
  let main_v16 : IVec S8192x128 1 := cmpf .olt main_v14 main_v15
  fn_part1 (F := F) main_arg4 main_arg5 main_arg6 main_v13 main_v16
-- ==== Kernel.lean ====
abbrev S4096x64x128 : Shape := ⟨3, ![4096, 64, 128]⟩
abbrev S128x8192 : Shape := ⟨2, ![128, 8192]⟩
abbrev S128 : Shape := ⟨1, ![128]⟩
abbrev S8192x128 : Shape := ⟨2, ![8192, 128]⟩
abbrev S8192 : Shape := ⟨1, ![8192]⟩
abbrev S64x64x128 : Shape := ⟨3, ![64, 64, 128]⟩
abbrev S64x64x64 : Shape := ⟨3, ![64, 64, 64]⟩
abbrev S64x64 : Shape := ⟨2, ![64, 64]⟩
abbrev S64x64x1 : Shape := ⟨3, ![64, 64, 1]⟩
abbrev S64x8192 : Shape := ⟨2, ![64, 8192]⟩
abbrev S64x128 : Shape := ⟨2, ![64, 128]⟩
abbrev S1x128 : Shape := ⟨2, ![1, 128]⟩
abbrev S1x8192 : Shape := ⟨2, ![1, 8192]⟩
abbrev S1x1x128 : Shape := ⟨3, ![1, 1, 128]⟩

abbrev nBuf : Space → Nat
  | .hbm => 12
  | .vmem => 10
  | .smem => 0
  | _ => 0

abbrev bufTy : (tb : Table) → Fin (tcTables nBuf tb) → BufTy
  | .hbm, ⟨0, _⟩ => ⟨S4096x64x128, .f32⟩
  | .hbm, ⟨1, _⟩ => ⟨S128x8192, .f32⟩
  | .hbm, ⟨2, _⟩ => ⟨S128, .f32⟩
  | .hbm, ⟨3, _⟩ => ⟨S8192x128, .f32⟩
  | .hbm, ⟨4, _⟩ => ⟨S8192, .f32⟩
  | .hbm, ⟨5, _⟩ => ⟨S128, .f32⟩
  | .hbm, ⟨6, _⟩ => ⟨S128, .f32⟩
  | .hbm, ⟨7, _⟩ => ⟨S8192x128, .f32⟩
  | .hbm, ⟨8, _⟩ => ⟨S8192x128, .bf16⟩
  | .hbm, ⟨9, _⟩ => ⟨S128x8192, .f32⟩
  | .hbm, ⟨10, _⟩ => ⟨S128x8192, .bf16⟩
  | .hbm, ⟨11, _⟩ => ⟨S4096x64x128, .f32⟩
  | .local _ .vmem, ⟨0, _⟩ => ⟨S64x64x128, .f32⟩
  | .local _ .vmem, ⟨1, _⟩ => ⟨S64x64x128, .f32⟩
  | .local _ .vmem, ⟨2, _⟩ => ⟨S8192x128, .bf16⟩
  | .local _ .vmem, ⟨3, _⟩ => ⟨S128, .f32⟩
  | .local _ .vmem, ⟨4, _⟩ => ⟨S128x8192, .bf16⟩
  | .local _ .vmem, ⟨5, _⟩ => ⟨S8192, .f32⟩
  | .local _ .vmem, ⟨6, _⟩ => ⟨S128, .f32⟩
  | .local _ .vmem, ⟨7, _⟩ => ⟨S128, .f32⟩
  | .local _ .vmem, ⟨8, _⟩ => ⟨S64x64x128, .f32⟩
  | .local _ .vmem, ⟨9, _⟩ => ⟨S64x64x128, .f32⟩
  | _, _ => ⟨S4096x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S128x8192_S8192x128_1_0 : S128x8192.Transposes [1, 0] S8192x128
  bitsLt_bf16_f32 : FTy.bits .bf16 < FTy.bits .f32
  transposes_S8192x128_S128x8192_1_0 : S8192x128.Transposes [1, 0] S128x8192
  inb_S64x64x128_S64x64x128_0_0_0 : ∀ a, (![0, 0, 0] : Fin 3 → Nat) a + S64x64x128.size a ≤ S64x64x128.size a
  h_S64x64x128 : 0 < S64x64x128.numel
  reduces_S64x64x64_S64x64 : S64x64x64.Reduces [2] S64x64
  shapeCasts_S64x64_S64x64x1 : S64x64.ShapeCasts S64x64x1
  broadcasts_S64x64x1_S64x64x64 : S64x64x1.Broadcasts S64x64x64
  shapeCasts_S64x64x128_S64x8192 : S64x64x128.ShapeCasts S64x8192
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128_S128_0 : ∀ a, (![0] : Fin 1 → Nat) a + S128.size a ≤ S128.size a
  h_S128 : 0 < S128.numel
  shapeCasts_S128_S1x128 : S128.ShapeCasts S1x128
  broadcasts_S1x128_S64x128 : S1x128.Broadcasts S64x128
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S8192_S8192_0 : ∀ a, (![0] : Fin 1 → Nat) a + S8192.size a ≤ S8192.size a
  h_S8192 : 0 < S8192.numel
  shapeCasts_S8192_S1x8192 : S8192.ShapeCasts S1x8192
  broadcasts_S1x8192_S64x8192 : S1x8192.Broadcasts S64x8192
  shapeCasts_S64x8192_S64x64x128 : S64x8192.ShapeCasts S64x64x128
  reduces_S64x64x128_S64x64 : S64x64x128.Reduces [2] S64x64
  broadcasts_S64x64x1_S64x64x128 : S64x64x1.Broadcasts S64x64x128
  shapeCasts_S128_S1x1x128 : S128.ShapeCasts S1x1x128
  broadcasts_S1x1x128_S64x64x128 : S1x1x128.Broadcasts S64x64x128
  dot_S64x64x128_S64x64x128_S64x64x64_2_2_1_1_0_0_wf : DotDims.WF S64x64x128 S64x64x128 S64x64x64 [2] [2] [1] [1] [0] [0]
  dot_S64x64x64_S64x64x128_S64x64x128_2_1_1_2_0_0_wf : DotDims.WF S64x64x64 S64x64x128 S64x64x128 [2] [1] [1] [2] [0] [0]
  dot_S64x8192_S8192x128_S64x128_1_0_0_1_n_n_wf : DotDims.WF S64x8192 S8192x128 S64x128 [1] [0] [0] [1] [] []
  dot_S64x128_S128x8192_S64x8192_1_0_0_1_n_n_wf : DotDims.WF S64x128 S128x8192 S64x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x128.size a ≤ S4096x64x128.size a
  hwx0_0 : ∀ i : grid0.Coords, EltTy.bits .f32 = 32 ∨ (Rect.block (s := S4096x64x128) S64x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x8192.size a ≤ S128x8192.size a
  hwx0_3 : ∀ i : grid0.Coords, EltTy.bits .bf16 = 32 ∨ (Rect.block (s := S128x8192) S128x8192.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8192.size a ≤ S8192.size a
  hwx0_4 : ∀ i : grid0.Coords, EltTy.bits .f32 = 32 ∨ (Rect.block (s := S8192) S8192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x64x128.size a ≤ S4096x64x128.size a
  hwx0_7 : ∀ i : grid0.Coords, EltTy.bits .f32 = 32 ∨ (Rect.block (s := S4096x64x128) S64x64x128.size (cc0_transform_7 i) (hinb0_7 i)).WholeWords (EltTy.packing .f32)

variable [Facts₀]

def dot_S64x64x128_S64x64x128_S64x64x64_2_2_1_1_0_0 : DotDims S64x64x128 S64x64x128 S64x64x64 where
  lhsContracting := [2]
  rhsContracting := [2]
  lhsNonContracting := [1]
  rhsNonContracting := [1]
  lhsBatch := [0]
  rhsBatch := [0]
  wf := dot_S64x64x128_S64x64x128_S64x64x64_2_2_1_1_0_0_wf
def dot_S64x64x64_S64x64x128_S64x64x128_2_1_1_2_0_0 : DotDims S64x64x64 S64x64x128 S64x64x128 where
  lhsContracting := [2]
  rhsContracting := [1]
  lhsNonContracting := [1]
  rhsNonContracting := [2]
  lhsBatch := [0]
  rhsBatch := [0]
  wf := dot_S64x64x64_S64x64x128_S64x64x128_2_1_1_2_0_0_wf
def dot_S64x8192_S8192x128_S64x128_1_0_0_1_n_n : DotDims S64x8192 S8192x128 S64x128 where
  lhsContracting := [1]
  rhsContracting := [0]
  lhsNonContracting := [0]
  rhsNonContracting := [1]
  lhsBatch := []
  rhsBatch := []
  wf := dot_S64x8192_S8192x128_S64x128_1_0_0_1_n_n_wf
def dot_S64x128_S128x8192_S64x8192_1_0_0_1_n_n : DotDims S64x128 S128x8192 S64x8192 where
  lhsContracting := [1]
  rhsContracting := [0]
  lhsNonContracting := [0]
  rhsNonContracting := [1]
  lhsBatch := []
  rhsBatch := []
  wf := dot_S64x128_S128x8192_S64x8192_1_0_0_1_n_n_wf

abbrev win0_0 : Pipeline.Window sig grid0 :=
  Pipeline.Window.ofSpec (Memref.whole main_arg0) S64x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S64x64x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x64x128 : Shape := ⟨3, ![4096, 64, 128]⟩
abbrev S128x8192 : Shape := ⟨2, ![128, 8192]⟩
abbrev S128 : Shape := ⟨1, ![128]⟩
abbrev S8192x128 : Shape := ⟨2, ![8192, 128]⟩
abbrev S8192 : Shape := ⟨1, ![8192]⟩
abbrev S4096x64x64 : Shape := ⟨3, ![4096, 64, 64]⟩
abbrev S_ : Shape := ⟨0, ![]⟩
abbrev S4096x64 : Shape := ⟨2, ![4096, 64]⟩
abbrev S4096x64x1 : Shape := ⟨3, ![4096, 64, 1]⟩
abbrev S4096x8192 : Shape := ⟨2, ![4096, 8192]⟩
abbrev S4096x128 : Shape := ⟨2, ![4096, 128]⟩
abbrev S1x128 : Shape := ⟨2, ![1, 128]⟩
abbrev S1x8192 : Shape := ⟨2, ![1, 8192]⟩
abbrev S1x1x128 : Shape := ⟨3, ![1, 1, 128]⟩

abbrev nBuf : Space → Nat
  | .hbm => 72
  | .vmem => 0
  | .smem => 0
  | _ => 0

abbrev bufTy : (tb : Table) → Fin (tcTables nBuf tb) → BufTy
  | .hbm, ⟨0, _⟩ => ⟨S4096x64x128, .f32⟩
  | .hbm, ⟨1, _⟩ => ⟨S128x8192, .f32⟩
  | .hbm, ⟨2, _⟩ => ⟨S128, .f32⟩
  | .hbm, ⟨3, _⟩ => ⟨S8192x128, .f32⟩
  | .hbm, ⟨4, _⟩ => ⟨S8192, .f32⟩
  | .hbm, ⟨5, _⟩ => ⟨S128, .f32⟩
  | .hbm, ⟨6, _⟩ => ⟨S128, .f32⟩
  | .hbm, ⟨7, _⟩ => ⟨S4096x64x64, .f32⟩
  | .hbm, ⟨8, _⟩ => ⟨S_, .f32⟩
  | .hbm, ⟨9, _⟩ => ⟨S4096x64x64, .f32⟩
  | .hbm, ⟨10, _⟩ => ⟨S4096x64x64, .f32⟩
  | .hbm, ⟨11, _⟩ => ⟨S_, .f32⟩
  | .hbm, ⟨12, _⟩ => ⟨S4096x64, .f32⟩
  | .hbm, ⟨13, _⟩ => ⟨S_, .f32⟩
  | .hbm, ⟨14, _⟩ => ⟨S4096x64, .f32⟩
  | .hbm, ⟨15, _⟩ => ⟨S4096x64, .f32⟩
  | .hbm, ⟨16, _⟩ => ⟨S4096x64x1, .f32⟩
  | .hbm, ⟨17, _⟩ => ⟨S4096x64x64, .f32⟩
  | .hbm, ⟨18, _⟩ => ⟨S4096x64x64, .f32⟩
  | .hbm, ⟨19, _⟩ => ⟨S4096x64x64, .f32⟩
  | .hbm, ⟨20, _⟩ => ⟨S_, .f32⟩
  | .hbm, ⟨21, _⟩ => ⟨S4096x64, .f32⟩
  | .hbm, ⟨22, _⟩ => ⟨S4096x64x1, .f32⟩
  | .hbm, ⟨23, _⟩ => ⟨S4096x64x64, .f32⟩
  | .hbm, ⟨24, _⟩ => ⟨S4096x64x64, .f32⟩
  | .hbm, ⟨25, _⟩ => ⟨S4096x64x128, .f32⟩
  | .hbm, ⟨26, _⟩ => ⟨S4096x8192, .f32⟩
  | .hbm, ⟨27, _⟩ => ⟨S8192x128, .f32⟩
  | .hbm, ⟨28, _⟩ => ⟨S4096x128, .f32⟩
  | .hbm, ⟨29, _⟩ => ⟨S1x128, .f32⟩
  | .hbm, ⟨30, _⟩ => ⟨S4096x128, .f32⟩
  | .hbm, ⟨31, _⟩ => ⟨S4096x128, .f32⟩
  | .hbm, ⟨32, _⟩ => ⟨S_, .f32⟩
  | .hbm, ⟨33, _⟩ => ⟨S4096x128, .f32⟩
  | .hbm, ⟨34, _⟩ => ⟨S4096x128, .f32⟩
  | .hbm, ⟨35, _⟩ => ⟨S128x8192, .f32⟩
  | .hbm, ⟨36, _⟩ => ⟨S4096x8192, .f32⟩
  | .hbm, ⟨37, _⟩ => ⟨S1x8192, .f32⟩
  | .hbm, ⟨38, _⟩ => ⟨S4096x8192, .f32⟩
  | .hbm, ⟨39, _⟩ => ⟨S4096x8192, .f32⟩
  | .hbm, ⟨40, _⟩ => ⟨S4096x64x128, .f32⟩
  | .hbm, ⟨41, _⟩ => ⟨S4096x64x128, .f32⟩
  | .hbm, ⟨42, _⟩ => ⟨S4096x64x128, .f32⟩
  | .hbm, ⟨43, _⟩ => ⟨S_, .f32⟩
  | .hbm, ⟨44, _⟩ => ⟨S4096x64, .f32⟩
  | .hbm, ⟨45, _⟩ => ⟨S4096x64x1, .f32⟩
  | .hbm, ⟨46, _⟩ => ⟨S_, .f32⟩
  | .hbm, ⟨47, _⟩ => ⟨S4096x64x1, .f32⟩
  | .hbm, ⟨48, _⟩ => ⟨S4096x64x1, .f32⟩
  | .hbm, ⟨49, _⟩ => ⟨S4096x64x128, .f32⟩
  | .hbm, ⟨50, _⟩ => ⟨S4096x64x128, .f32⟩
  | .hbm, ⟨51, _⟩ => ⟨S4096x64x128, .f32⟩
  | .hbm, ⟨52, _⟩ => ⟨S_, .f32⟩
  | .hbm, ⟨53, _⟩ => ⟨S4096x64, .f32⟩
  | .hbm, ⟨54, _⟩ => ⟨S4096x64x1, .f32⟩
  | .hbm, ⟨55, _⟩ => ⟨S_, .f32⟩
  | .hbm, ⟨56, _⟩ => ⟨S4096x64x1, .f32⟩
  | .hbm, ⟨57, _⟩ => ⟨S4096x64x1, .f32⟩
  | .hbm, ⟨58, _⟩ => ⟨S4096x64x128, .f32⟩
  | .hbm, ⟨59, _⟩ => ⟨S4096x64x128, .f32⟩
  | .hbm, ⟨60, _⟩ => ⟨S_, .f32⟩
  | .hbm, ⟨61, _⟩ => ⟨S4096x64x1, .f32⟩
  | .hbm, ⟨62, _⟩ => ⟨S4096x64x1, .f32⟩
  | .hbm, ⟨63, _⟩ => ⟨S4096x64x1, .f32⟩
  | .hbm, ⟨64, _⟩ => ⟨S4096x64x128, .f32⟩
  | .hbm, ⟨65, _⟩ => ⟨S4096x64x128, .f32⟩
  | .hbm, ⟨66, _⟩ => ⟨S1x1x128, .f32⟩
  | .hbm, ⟨67, _⟩ => ⟨S4096x64x128, .f32⟩
  | .hbm, ⟨68, _⟩ => ⟨S4096x64x128, .f32⟩
  | .hbm, ⟨69, _⟩ => ⟨S1x1x128, .f32⟩
  | .hbm, ⟨70, _⟩ => ⟨S4096x64x128, .f32⟩
  | .hbm, ⟨71, _⟩ => ⟨S4096x64x128, .f32⟩
  | _, _ => ⟨S4096x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_cst : Ref sig .tc := ⟨.hbm, 32, rfl⟩
abbrev main_call0_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]

class Facts₀ : Prop where
  bcast_S_S4096x64x64 : S_.BroadcastsInDim S4096x64x64 (![] : Fin 0 → Fin S4096x64x64.rank)
  reducesTo_S4096x64x64_S4096x64_d2 : S4096x64x64.ReducesTo [2] S4096x64
  h_S_ : 0 < S_.numel
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  shapeCasts_S4096x64x128_S4096x8192 : S4096x64x128.ShapeCasts S4096x8192
  transposes_S128x8192_S8192x128_1_0 : S128x8192.Transposes [1, 0] S8192x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  transposes_S8192x128_S128x8192_1_0 : S8192x128.Transposes [1, 0] S128x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  shapeCasts_S4096x8192_S4096x64x128 : S4096x8192.ShapeCasts S4096x64x128
  reducesTo_S4096x64x128_S4096x64_d2 : S4096x64x128.ReducesTo [2] S4096x64
  bcast_S_S4096x64x1 : S_.BroadcastsInDim S4096x64x1 (![] : Fin 0 → Fin S4096x64x1.rank)
  bcast_S4096x64x1_S4096x64x128_0_1_2 : S4096x64x1.BroadcastsInDim S4096x64x128 (![0, 1, 2] : Fin 3 → Fin S4096x64x128.rank)
  bcast_S128_S1x1x128_2 : S128.BroadcastsInDim S1x1x128 (![2] : Fin 1 → Fin S1x1x128.rank)
  bcast_S1x1x128_S4096x64x128_0_1_2 : S1x1x128.BroadcastsInDim S4096x64x128 (![0, 1, 2] : Fin 3 → Fin S4096x64x128.rank)
  dot_S4096x64x128_S4096x64x128_S4096x64x64_2_2_1_1_0_0_wf : DotDims.WF S4096x64x128 S4096x64x128 S4096x64x64 [2] [2] [1] [1] [0] [0]
  dot_S4096x64x64_S4096x64x128_S4096x64x128_2_1_1_2_0_0_wf : DotDims.WF S4096x64x64 S4096x64x128 S4096x64x128 [2] [1] [1] [2] [0] [0]
  dot_S4096x8192_S8192x128_S4096x128_1_0_0_1_n_n_wf : DotDims.WF S4096x8192 S8192x128 S4096x128 [1] [0] [0] [1] [] []
  dot_S4096x128_S128x8192_S4096x8192_1_0_0_1_n_n_wf : DotDims.WF S4096x128 S128x8192 S4096x8192 [1] [0] [0] [1] [] []

variable [Facts₀]

def dot_S4096x64x128_S4096x64x128_S4096x64x64_2_2_1_1_0_0 : DotDims S4096x64x128 S4096x64x128 S4096x64x64 where
  lhsContracting := [2]
  rhsContracting := [2]
  lhsNonContracting := [1]
  rhsNonContracting := [1]
  lhsBatch := [0]
  rhsBatch := [0]
  wf := dot_S4096x64x128_S4096x64x128_S4096x64x64_2_2_1_1_0_0_wf
def dot_S4096x64x64_S4096x64x128_S4096x64x128_2_1_1_2_0_0 : DotDims S4096x64x64 S4096x64x128 S4096x64x128 where
  lhsContracting := [2]
  rhsContracting := [1]
  lhsNonContracting := [1]
  rhsNonContracting := [2]
  lhsBatch := [0]
  rhsBatch := [0]
  wf := dot_S4096x64x64_S4096x64x128_S4096x64x128_2_1_1_2_0_0_wf
def dot_S4096x8192_S8192x128_S4096x128_1_0_0_1_n_n : DotDims S4096x8192 S8192x128 S4096x128 where
  lhsContracting := [1]
  rhsContracting := [0]
  lhsNonContracting := [0]
  rhsNonContracting := [1]
  lhsBatch := []
  rhsBatch := []
  wf := dot_S4096x8192_S8192x128_S4096x128_1_0_0_1_n_n_wf
def dot_S4096x128_S128x8192_S4096x8192_1_0_0_1_n_n : DotDims S4096x128 S128x8192 S4096x8192 where
  lhsContracting := [1]
  rhsContracting := [0]
  lhsNonContracting := [0]
  rhsNonContracting := [1]
  lhsBatch := []
  rhsBatch := []
  wf := dot_S4096x128_S128x8192_S4096x8192_1_0_0_1_n_n_wf

class Facts : Prop extends Facts₀ where

variable [Facts]
-- ==== Proof.KernelProducts.lean ====
/-
  The kernel's four matrix products read at an entry, at the ideal values.

  A product into a zero accumulator is, entry by entry, the sum over the contracted axis of the products of the two
  operands' entries: for the scores, entry (p, t, s) sums a[p,t,d] a[p,s,d] over the 128 features d; for the attention
  output, entry (p, t, d) sums w[p,t,s] a[p,s,d] over the 64 tokens s; for the hidden layer, entry (p, j) sums
  f[p,k] u[k,j] over the 8192 flat positions k; for the perceptron's output, entry (p, k) sums h[p,j] v[j,k] over the 128
  hidden units j.  Each statement names the operands' entries by their coordinates; the proofs read the product's
  operand indices off its dimension numbers, one axis at a time.
-/
import proofs.«103078_j24764781429079_2_alg».proof.Proof.Gen.KernelIdeal
import Idealize.ShloMosaic.Lib.ValueIdx
import Idealize.ShloMosaic.PureOps.Ideal.Laws

noncomputable section

namespace Cert.Layer.KernelProducts

open Cert.KernelIdeal Cert.KernelIdeal.Gen Idealize.ShloMosaic Idealize.ShloMosaic.ValueIdx

/-! ## Scores: batch axis 0, rows from axis 1 of each operand, features contracted -/

theorem scores_lhs0 (i : S64x64x64.Idx) (q : dot_S64x64x128_S64x64x128_S64x64x64_2_2_1_1_0_0.contr.Idx) :
    (dot_S64x64x128_S64x64x128_S64x64x64_2_2_1_1_0_0.lhsIdx i q 0).val = (i 0).val := by
  unfold DotDims.lhsIdx
  rw [dif_pos (show (0 : Fin S64x64x128.rank) ∈ dot_S64x64x128_S64x64x128_S64x64x64_2_2_1_1_0_0.lhsBatch by decide)]
  rfl
theorem scores_lhs1 (i : S64x64x64.Idx) (q : dot_S64x64x128_S64x64x128_S64x64x64_2_2_1_1_0_0.contr.Idx) :
    (dot_S64x64x128_S64x64x128_S64x64x64_2_2_1_1_0_0.lhsIdx i q 1).val = (i 1).val := by
  unfold DotDims.lhsIdx
  rw [dif_neg (show ¬(1 : Fin S64x64x128.rank) ∈ dot_S64x64x128_S64x64x128_S64x64x64_2_2_1_1_0_0.lhsBatch by decide), dif_pos (show (1 : Fin S64x64x128.rank) ∈ dot_S64x64x128_S64x64x128_S64x64x64_2_2_1_1_0_0.lhsNonContracting by decide)]
  rfl
theorem scores_lhs2 (i : S64x64x64.Idx) (q : dot_S64x64x128_S64x64x128_S64x64x64_2_2_1_1_0_0.contr.Idx) :
    (dot_S64x64x128_S64x64x128_S64x64x64_2_2_1_1_0_0.lhsIdx i q 2).val = (q ⟨0, by decide⟩).val :=
  dot_S64x64x128_S64x64x128_S64x64x64_2_2_1_1_0_0.lhsIdx_val_of_single rfl i q
theorem scores_rhs0 (i : S64x64x64.Idx) (q : dot_S64x64x128_S64x64x128_S64x64x64_2_2_1_1_0_0.contr.Idx) :
    (dot_S64x64x128_S64x64x128_S64x64x64_2_2_1_1_0_0.rhsIdx i q 0).val = (i 0).val := by
  unfold DotDims.rhsIdx
  rw [dif_pos (show (0 : Fin S64x64x128.rank) ∈ dot_S64x64x128_S64x64x128_S64x64x64_2_2_1_1_0_0.rhsBatch by decide)]
  rfl
theorem scores_rhs1 (i : S64x64x64.Idx) (q : dot_S64x64x128_S64x64x128_S64x64x64_2_2_1_1_0_0.contr.Idx) :
    (dot_S64x64x128_S64x64x128_S64x64x64_2_2_1_1_0_0.rhsIdx i q 1).val = (i 2).val := by
  unfold DotDims.rhsIdx
  rw [dif_neg (show ¬(1 : Fin S64x64x128.rank) ∈ dot_S64x64x128_S64x64x128_S64x64x64_2_2_1_1_0_0.rhsBatch by decide), dif_pos (show (1 : Fin S64x64x128.rank) ∈ dot_S64x64x128_S64x64x128_S64x64x64_2_2_1_1_0_0.rhsNonContracting by decide)]
  rfl
theorem scores_rhs2 (i : S64x64x64.Idx) (q : dot_S64x64x128_S64x64x128_S64x64x64_2_2_1_1_0_0.contr.Idx) :
    (dot_S64x64x128_S64x64x128_S64x64x64_2_2_1_1_0_0.rhsIdx i q 2).val = (q ⟨0, by decide⟩).val :=
  dot_S64x64x128_S64x64x128_S64x64x64_2_2_1_1_0_0.rhsIdx_val_of_single rfl i q

/-- Entry (p, t, s) of `a aᵀ` per batch element: the sum over features of `a[p,t,d] a[p,s,d]`. -/
theorem scores_apply (a : FVec Ideal S64x64x128 .bf16) (p t s : Fin 64) :
    matmul dot_S64x64x128_S64x64x128_S64x64x64_2_2_1_1_0_0 none a a (constant S64x64x64 .f32 0x00000000#32) (ix3 p t s)
      = ∑ d : Fin 128, a (ix3 p t d) * a (ix3 p s d) := by
  simp only [matmul]
  rw [Ideal.matmul_constant_zero_apply, ← Equiv.sum_comp (contrEquiv1 dot_S64x64x128_S64x64x128_S64x64x64_2_2_1_1_0_0 128 rfl rfl).symm]
  refine Finset.sum_congr rfl fun k _ => ?_
  have hk := contrEquiv1_symm_val dot_S64x64x128_S64x64x128_S64x64x64_2_2_1_1_0_0 128 rfl rfl k
  have el : dot_S64x64x128_S64x64x128_S64x64x64_2_2_1_1_0_0.lhsIdx (ix3 p t s) ((contrEquiv1 dot_S64x64x128_S64x64x128_S64x64x64_2_2_1_1_0_0 128 rfl rfl).symm k) = ix3 p t k := funext fun a => Fin.ext (by
    match a with
    | ⟨0, _⟩ => exact scores_lhs0 _ _
    | ⟨1, _⟩ => exact scores_lhs1 _ _
    | ⟨2, _⟩ => exact (scores_lhs2 _ _).trans hk)
  have er : dot_S64x64x128_S64x64x128_S64x64x64_2_2_1_1_0_0.rhsIdx (ix3 p t s) ((contrEquiv1 dot_S64x64x128_S64x64x128_S64x64x64_2_2_1_1_0_0 128 rfl rfl).symm k) = ix3 p s k := funext fun a => Fin.ext (by
    match a with
    | ⟨0, _⟩ => exact scores_rhs0 _ _
    | ⟨1, _⟩ => exact scores_rhs1 _ _
    | ⟨2, _⟩ => exact (scores_rhs2 _ _).trans hk)
  rw [el, er]

/-! ## Attention output: batch axis 0, tokens of the weights contracted against tokens of the values -/

theorem mix_lhs0 (i : S64x64x128.Idx) (q : dot_S64x64x64_S64x64x128_S64x64x128_2_1_1_2_0_0.contr.Idx) :
    (dot_S64x64x64_S64x64x128_S64x64x128_2_1_1_2_0_0.lhsIdx i q 0).val = (i 0).val := by
  unfold DotDims.lhsIdx
  rw [dif_pos (show (0 : Fin S64x64x64.rank) ∈ dot_S64x64x64_S64x64x128_S64x64x128_2_1_1_2_0_0.lhsBatch by decide)]
  rfl
theorem mix_lhs1 (i : S64x64x128.Idx) (q : dot_S64x64x64_S64x64x128_S64x64x128_2_1_1_2_0_0.contr.Idx) :
    (dot_S64x64x64_S64x64x128_S64x64x128_2_1_1_2_0_0.lhsIdx i q 1).val = (i 1).val := by
  unfold DotDims.lhsIdx
  rw [dif_neg (show ¬(1 : Fin S64x64x64.rank) ∈ dot_S64x64x64_S64x64x128_S64x64x128_2_1_1_2_0_0.lhsBatch by decide), dif_pos (show (1 : Fin S64x64x64.rank) ∈ dot_S64x64x64_S64x64x128_S64x64x128_2_1_1_2_0_0.lhsNonContracting by decide)]
  rfl
theorem mix_lhs2 (i : S64x64x128.Idx) (q : dot_S64x64x64_S64x64x128_S64x64x128_2_1_1_2_0_0.contr.Idx) :
    (dot_S64x64x64_S64x64x128_S64x64x128_2_1_1_2_0_0.lhsIdx i q 2).val = (q ⟨0, by decide⟩).val :=
  dot_S64x64x64_S64x64x128_S64x64x128_2_1_1_2_0_0.lhsIdx_val_of_single rfl i q
theorem mix_rhs0 (i : S64x64x128.Idx) (q : dot_S64x64x64_S64x64x128_S64x64x128_2_1_1_2_0_0.contr.Idx) :
    (dot_S64x64x64_S64x64x128_S64x64x128_2_1_1_2_0_0.rhsIdx i q 0).val = (i 0).val := by
  unfold DotDims.rhsIdx
  rw [dif_pos (show (0 : Fin S64x64x128.rank) ∈ dot_S64x64x64_S64x64x128_S64x64x128_2_1_1_2_0_0.rhsBatch by decide)]
  rfl
theorem mix_rhs1 (i : S64x64x128.Idx) (q : dot_S64x64x64_S64x64x128_S64x64x128_2_1_1_2_0_0.contr.Idx) :
    (dot_S64x64x64_S64x64x128_S64x64x128_2_1_1_2_0_0.rhsIdx i q 1).val = (q ⟨0, by decide⟩).val :=
  dot_S64x64x64_S64x64x128_S64x64x128_2_1_1_2_0_0.rhsIdx_val_of_single rfl i q
theorem mix_rhs2 (i : S64x64x128.Idx) (q : dot_S64x64x64_S64x64x128_S64x64x128_2_1_1_2_0_0.contr.Idx) :
    (dot_S64x64x64_S64x64x128_S64x64x128_2_1_1_2_0_0.rhsIdx i q 2).val = (i 2).val := by
  unfold DotDims.rhsIdx
  rw [dif_neg (show ¬(2 : Fin S64x64x128.rank) ∈ dot_S64x64x64_S64x64x128_S64x64x128_2_1_1_2_0_0.rhsBatch by decide), dif_pos (show (2 : Fin S64x64x128.rank) ∈ dot_S64x64x64_S64x64x128_S64x64x128_2_1_1_2_0_0.rhsNonContracting by decide)]
  rfl

/-- Entry (p, t, d) of `w a` per batch element: the sum over tokens of `w[p,t,s] a[p,s,d]`. -/
theorem mix_apply (w : FVec Ideal S64x64x64 .bf16) (a : FVec Ideal S64x64x128 .bf16) (p t : Fin 64) (d : Fin 128) :
    matmul dot_S64x64x64_S64x64x128_S64x64x128_2_1_1_2_0_0 none w a (constant S64x64x128 .f32 0x00000000#32) (ix3 p t d)
      = ∑ s : Fin 64, w (ix3 p t s) * a (ix3 p s d) := by
  simp only [matmul]
  rw [Ideal.matmul_constant_zero_apply, ← Equiv.sum_comp (contrEquiv1 dot_S64x64x64_S64x64x128_S64x64x128_2_1_1_2_0_0 64 rfl rfl).symm]
  refine Finset.sum_congr rfl fun k _ => ?_
  have hk := contrEquiv1_symm_val dot_S64x64x64_S64x64x128_S64x64x128_2_1_1_2_0_0 64 rfl rfl k
  have el : dot_S64x64x64_S64x64x128_S64x64x128_2_1_1_2_0_0.lhsIdx (ix3 p t d) ((contrEquiv1 dot_S64x64x64_S64x64x128_S64x64x128_2_1_1_2_0_0 64 rfl rfl).symm k) = ix3 p t k := funext fun a => Fin.ext (by
    match a with
    | ⟨0, _⟩ => exact mix_lhs0 _ _
    | ⟨1, _⟩ => exact mix_lhs1 _ _
    | ⟨2, _⟩ => exact (mix_lhs2 _ _).trans hk)
  have er : dot_S64x64x64_S64x64x128_S64x64x128_2_1_1_2_0_0.rhsIdx (ix3 p t d) ((contrEquiv1 dot_S64x64x64_S64x64x128_S64x64x128_2_1_1_2_0_0 64 rfl rfl).symm k) = ix3 p k d := funext fun a => Fin.ext (by
    match a with
    | ⟨0, _⟩ => exact mix_rhs0 _ _
    | ⟨1, _⟩ => exact (mix_rhs1 _ _).trans hk
    | ⟨2, _⟩ => exact mix_rhs2 _ _)
  rw [el, er]

/-! ## Hidden layer: rows times columns, the 8192 flat positions contracted -/

theorem hid_lhs0 (i : S64x128.Idx) (q : dot_S64x8192_S8192x128_S64x128_1_0_0_1_n_n.contr.Idx) :
    (dot_S64x8192_S8192x128_S64x128_1_0_0_1_n_n.lhsIdx i q 0).val = (i 0).val := by
  unfold DotDims.lhsIdx
  rw [dif_neg (show ¬(0 : Fin S64x8192.rank) ∈ dot_S64x8192_S8192x128_S64x128_1_0_0_1_n_n.lhsBatch by decide), dif_pos (show (0 : Fin S64x8192.rank) ∈ dot_S64x8192_S8192x128_S64x128_1_0_0_1_n_n.lhsNonContracting by decide)]
  rfl
theorem hid_lhs1 (i : S64x128.Idx) (q : dot_S64x8192_S8192x128_S64x128_1_0_0_1_n_n.contr.Idx) :
    (dot_S64x8192_S8192x128_S64x128_1_0_0_1_n_n.lhsIdx i q 1).val = (q ⟨0, by decide⟩).val :=
  dot_S64x8192_S8192x128_S64x128_1_0_0_1_n_n.lhsIdx_val_of_single rfl i q
theorem hid_rhs0 (i : S64x128.Idx) (q : dot_S64x8192_S8192x128_S64x128_1_0_0_1_n_n.contr.Idx) :
    (dot_S64x8192_S8192x128_S64x128_1_0_0_1_n_n.rhsIdx i q 0).val = (q ⟨0, by decide⟩).val :=
  dot_S64x8192_S8192x128_S64x128_1_0_0_1_n_n.rhsIdx_val_of_single rfl i q
theorem hid_rhs1 (i : S64x128.Idx) (q : dot_S64x8192_S8192x128_S64x128_1_0_0_1_n_n.contr.Idx) :
    (dot_S64x8192_S8192x128_S64x128_1_0_0_1_n_n.rhsIdx i q 1).val = (i 1).val := by
  unfold DotDims.rhsIdx
  rw [dif_neg (show ¬(1 : Fin S8192x128.rank) ∈ dot_S64x8192_S8192x128_S64x128_1_0_0_1_n_n.rhsBatch by decide), dif_pos (show (1 : Fin S8192x128.rank) ∈ dot_S64x8192_S8192x128_S64x128_1_0_0_1_n_n.rhsNonContracting by decide)]
  rfl

/-- Entry (p, j) of `f u`: the sum over flat positions of `f[p,k] u[k,j]`. -/
theorem hid_apply (f : FVec Ideal S64x8192 .bf16) (u : FVec Ideal S8192x128 .bf16) (p : Fin 64) (j : Fin 128) :
    matmul dot_S64x8192_S8192x128_S64x128_1_0_0_1_n_n none f u (constant S64x128 .f32 0x00000000#32) (ix2 p j)
      = ∑ k : Fin 8192, f (ix2 p k) * u (ix2 k j) := by
  simp only [matmul]
  rw [Ideal.matmul_constant_zero_apply, ← Equiv.sum_comp (contrEquiv1 dot_S64x8192_S8192x128_S64x128_1_0_0_1_n_n 8192 rfl rfl).symm]
  refine Finset.sum_congr rfl fun k _ => ?_
  have hk := contrEquiv1_symm_val dot_S64x8192_S8192x128_S64x128_1_0_0_1_n_n 8192 rfl rfl k
  have el : dot_S64x8192_S8192x128_S64x128_1_0_0_1_n_n.lhsIdx (ix2 p j) ((contrEquiv1 dot_S64x8192_S8192x128_S64x128_1_0_0_1_n_n 8192 rfl rfl).symm k) = ix2 p k := funext fun a => Fin.ext (by
    match a with
    | ⟨0, _⟩ => exact hid_lhs0 _ _
    | ⟨1, _⟩ => exact (hid_lhs1 _ _).trans hk)
  have er : dot_S64x8192_S8192x128_S64x128_1_0_0_1_n_n.rhsIdx (ix2 p j) ((contrEquiv1 dot_S64x8192_S8192x128_S64x128_1_0_0_1_n_n 8192 rfl rfl).symm k) = ix2 k j := funext fun a => Fin.ext (by
    match a with
    | ⟨0, _⟩ => exact (hid_rhs0 _ _).trans hk
    | ⟨1, _⟩ => exact hid_rhs1 _ _)
  rw [el, er]

/-! ## Perceptron output: rows times columns, the 128 hidden units contracted -/

theorem out_lhs0 (i : S64x8192.Idx) (q : dot_S64x128_S128x8192_S64x8192_1_0_0_1_n_n.contr.Idx) :
    (dot_S64x128_S128x8192_S64x8192_1_0_0_1_n_n.lhsIdx i q 0).val = (i 0).val := by
  unfold DotDims.lhsIdx
  rw [dif_neg (show ¬(0 : Fin S64x128.rank) ∈ dot_S64x128_S128x8192_S64x8192_1_0_0_1_n_n.lhsBatch by decide), dif_pos (show (0 : Fin S64x128.rank) ∈ dot_S64x128_S128x8192_S64x8192_1_0_0_1_n_n.lhsNonContracting by decide)]
  rfl
theorem out_lhs1 (i : S64x8192.Idx) (q : dot_S64x128_S128x8192_S64x8192_1_0_0_1_n_n.contr.Idx) :
    (dot_S64x128_S128x8192_S64x8192_1_0_0_1_n_n.lhsIdx i q 1).val = (q ⟨0, by decide⟩).val :=
  dot_S64x128_S128x8192_S64x8192_1_0_0_1_n_n.lhsIdx_val_of_single rfl i q
theorem out_rhs0 (i : S64x8192.Idx) (q : dot_S64x128_S128x8192_S64x8192_1_0_0_1_n_n.contr.Idx) :
    (dot_S64x128_S128x8192_S64x8192_1_0_0_1_n_n.rhsIdx i q 0).val = (q ⟨0, by decide⟩).val :=
  dot_S64x128_S128x8192_S64x8192_1_0_0_1_n_n.rhsIdx_val_of_single rfl i q
theorem out_rhs1 (i : S64x8192.Idx) (q : dot_S64x128_S128x8192_S64x8192_1_0_0_1_n_n.contr.Idx) :
    (dot_S64x128_S128x8192_S64x8192_1_0_0_1_n_n.rhsIdx i q 1).val = (i 1).val := by
  unfold DotDims.rhsIdx
  rw [dif_neg (show ¬(1 : Fin S128x8192.rank) ∈ dot_S64x128_S128x8192_S64x8192_1_0_0_1_n_n.rhsBatch by decide), dif_pos (show (1 : Fin S128x8192.rank) ∈ dot_S64x128_S128x8192_S64x8192_1_0_0_1_n_n.rhsNonContracting by decide)]
  rfl

/-- Entry (p, k) of `h v`: the sum over hidden units of `h[p,j] v[j,k]`. -/
theorem out_apply (h : FVec Ideal S64x128 .bf16) (v : FVec Ideal S128x8192 .bf16) (p : Fin 64) (k : Fin 8192) :
    matmul dot_S64x128_S128x8192_S64x8192_1_0_0_1_n_n none h v (constant S64x8192 .f32 0x00000000#32) (ix2 p k)
      = ∑ j : Fin 128, h (ix2 p j) * v (ix2 j k) := by
  simp only [matmul]
  rw [Ideal.matmul_constant_zero_apply, ← Equiv.sum_comp (contrEquiv1 dot_S64x128_S128x8192_S64x8192_1_0_0_1_n_n 128 rfl rfl).symm]
  refine Finset.sum_congr rfl fun j _ => ?_
  have hj := contrEquiv1_symm_val dot_S64x128_S128x8192_S64x8192_1_0_0_1_n_n 128 rfl rfl j
  have el : dot_S64x128_S128x8192_S64x8192_1_0_0_1_n_n.lhsIdx (ix2 p k) ((contrEquiv1 dot_S64x128_S128x8192_S64x8192_1_0_0_1_n_n 128 rfl rfl).symm j) = ix2 p j := funext fun a => Fin.ext (by
    match a with
    | ⟨0, _⟩ => exact out_lhs0 _ _
    | ⟨1, _⟩ => exact (out_lhs1 _ _).trans hj)
  have er : dot_S64x128_S128x8192_S64x8192_1_0_0_1_n_n.rhsIdx (ix2 p k) ((contrEquiv1 dot_S64x128_S128x8192_S64x8192_1_0_0_1_n_n 128 rfl rfl).symm j) = ix2 j k := funext fun a => Fin.ext (by
    match a with
    | ⟨0, _⟩ => exact (out_rhs0 _ _).trans hj
    | ⟨1, _⟩ => exact out_rhs1 _ _)
  rw [el, er]

end Cert.Layer.KernelProducts

end
-- ==== Proof.Spec.lean ====
/-
  One batch element of the layer as a function on the extended reals.

  A batch element is a 64 x 128 matrix `x` (64 tokens, 128 features).  The layer adds three things, entry by entry:
  the single-head self-attention of `x` with itself (queries, keys and values all `x`: scores `x xᵀ` times a
  fixed scale, a softmax along each row taken as `exp (s - max) / Σ exp (s - max)`, and the weighted sum of the
  rows of `x`), a two-layer perceptron of the FLATTENED matrix (8192 entries in row-major order, a 128-wide hidden
  layer with a rectifier, back to 8192 entries read as a 64 x 128 matrix again), and `x` itself.  Each row of the sum
  is then normalised: its mean is subtracted, it is divided by the root of its variance plus a small constant, and it is
  scaled and shifted feature by feature.

  Every sum here is a finite sum on the extended reals, where addition and multiplication are commutative and
  associative; nothing below distributes or cancels, so no entry has to be finite.
  The float literals are kept as their bit patterns: the same pattern denotes the same extended real wherever it is read.
-/
import Idealize.ShloMosaic.PureOps.Ideal
import Idealize.ShloMosaic.Lib.ValueIdx

noncomputable section

namespace Cert.Layer

open Idealize.ShloMosaic

/-- The attention scale (the single-precision number nearest 128^(-1/2)). -/
abbrev cScale : EReal := Ideal.ofBits .f32 0x3DB504F3#32
/-- Minus infinity, from which a row's maximum is taken. -/
abbrev cNegInf : EReal := Ideal.ofBits .f32 0xFF800000#32
/-- Zero, the rectifier's floor. -/
abbrev cZero : EReal := Ideal.ofBits .f32 0x00000000#32
/-- 128, the number of features a mean is taken over. -/
abbrev c128 : EReal := Ideal.ofBits .f32 0x43000000#32
/-- The constant added to a variance before the root. -/
abbrev cEps : EReal := Ideal.ofBits .f32 0x3727C5AC#32

/-- The token of flat position `k` (row-major: `k = token * 128 + feature`). -/
def tok (k : Fin 8192) : Fin 64 := ⟨k.val / 128, by have := k.isLt; omega⟩
/-- The feature of flat position `k`. -/
def feat (k : Fin 8192) : Fin 128 := ⟨k.val % 128, Nat.mod_lt _ (by decide)⟩
/-- The flat position of entry `(t, d)`. -/
def flatPos (t : Fin 64) (d : Fin 128) : Fin 8192 := ⟨t.val * 128 + d.val, by have := t.isLt; have := d.isLt; omega⟩

variable (x : Fin 64 → Fin 128 → EReal)

/-- Scaled scores: `(Σ_d x[t,d] x[s,d]) * scale`. -/
def scores (t s : Fin 64) : EReal := (∑ d : Fin 128, x t d * x s d) * cScale

/-- The largest score of row `t` (taken from minus infinity, and once more against minus infinity). -/
def rowMax (t : Fin 64) : EReal :=
  max cNegInf ((Finset.univ : Finset (Fin 64)).fold max cNegInf (fun s => scores x t s))

/-- `exp (score - row maximum)`. -/
def expo (t s : Fin 64) : EReal := Ideal.exp (scores x t s - rowMax x t)

/-- The softmax weight of token `s` for token `t`. -/
def attn (t s : Fin 64) : EReal := Ideal.div (expo x t s) (∑ r : Fin 64, expo x t r)

/-- The attention output: the weighted sum of the rows of `x`. -/
def attnOut (t : Fin 64) (d : Fin 128) : EReal := ∑ s : Fin 64, attn x t s * x s d

variable (w1 : Fin 128 → Fin 8192 → EReal) (b1 : Fin 128 → EReal) (w2 : Fin 8192 → Fin 128 → EReal) (b2 : Fin 8192 → EReal)

/-- The hidden layer: `max (Σ_k flat(x)[k] w1[j,k] + b1[j]) 0`. -/
def hidden (j : Fin 128) : EReal := max ((∑ k : Fin 8192, x (tok k) (feat k) * w1 j k) + b1 j) cZero

/-- The perceptron's output at flat position `k`: `Σ_j hidden[j] w2[k,j] + b2[k]`. -/
def deep (k : Fin 8192) : EReal := (∑ j : Fin 128, hidden x w1 b1 j * w2 k j) + b2 k

/-- Attention plus perceptron plus the input. -/
def resid (t : Fin 64) (d : Fin 128) : EReal := attnOut x t d + deep x w1 b1 w2 b2 (flatPos t d) + x t d

variable (γ β : Fin 128 → EReal)

/-- The mean of a row of `y`. -/
def mean (y : Fin 64 → Fin 128 → EReal) (t : Fin 64) : EReal := Ideal.div (∑ d : Fin 128, y t d) c128

/-- The variance of a row of `y` (mean of squared deviations). -/
def var (y : Fin 64 → Fin 128 → EReal) (t : Fin 64) : EReal :=
  Ideal.div (∑ d : Fin 128, (y t d - mean y t) * (y t d - mean y t)) c128

/-- A row normalised, scaled and shifted. -/
def norm (y : Fin 64 → Fin 128 → EReal) (t : Fin 64) (d : Fin 128) : EReal :=
  (y t d - mean y t) * Ideal.rsqrt (var y t + cEps) * γ d + β d

/-- The layer on one batch element. -/
def layer (t : Fin 64) (d : Fin 128) : EReal := norm γ β (resid x w1 b1 w2 b2) t d

end Cert.Layer

end
-- ==== Proof.LibReduceLast.lean ====
/-
  Reductions over the last of three axes, in coordinates.

  Reducing a three-axis array over its last axis leaves a two-axis index (p, q); the source indices that reduce to it
  are (p, q, k) for k along the reduced axis.  So at the ideal values a sum over the last axis is the finite sum of the
  entries (p, q, k) over k, and a maximum over the last axis is the fold of `max` over the same entries from the
  accumulator's value.
-/
import Idealize.ShloMosaic.Lib.ValueIdx
import Idealize.ShloMosaic.PureOps.Reduce
import Idealize.ShloMosaic.PureOps.Ideal.Laws

noncomputable section

namespace Cert.Layer

open Idealize.ShloMosaic Idealize.ShloMosaic.ValueIdx

/-- The reduced index (p, q) with coordinate k put back on the last axis is (p, q, k). -/
theorem lift_last {a b n : ℕ} (h : (⟨3, ![a, b, n]⟩ : Shape).Reduces [2] (⟨2, ![a, b]⟩ : Shape)) (p : Fin a) (q : Fin b)
    (k : Fin ((⟨3, ![a, b, n]⟩ : Shape).size 2)) : h.lift (ix2 p q) k = ix3 p q (⟨k.val, k.isLt⟩ : Fin n) := by
  funext c; apply Fin.ext
  match c with
  | ⟨0, _⟩ => rfl
  | ⟨1, _⟩ => rfl
  | ⟨2, _⟩ => rfl

/-- A lane sum from the zero word, at (p, q): the sum over k of the entries (p, q, k). -/
theorem sumLast_apply {a b n : ℕ} (src : FVec Ideal (⟨3, ![a, b, n]⟩ : Shape) .f32)
    (h : (⟨3, ![a, b, n]⟩ : Shape).Reduces [2] (⟨2, ![a, b]⟩ : Shape)) (hφ : FKind.Formats .f32)
    (hacc : (0x00000000#32 : BitVec 32) = 0x00000000#32) (p : Fin a) (q : Fin b) :
    multiReduction .add [2] (⟨2, ![a, b]⟩ : Shape) src 0x00000000#32 h hφ hacc (ix2 p q) = ∑ k : Fin n, src (ix3 p q k) :=
  (Ideal.multiReduction_add_single src 0x00000000#32 h hφ hacc (ix2 p q)).trans
    (Finset.sum_congr rfl fun k _ => congrArg src (lift_last h p q k))

/-- A lane maximum from minus infinity, at (p, q): the fold of `max` over k of the entries (p, q, k). -/
theorem maxLast_apply {a b n : ℕ} (src : FVec Ideal (⟨3, ![a, b, n]⟩ : Shape) .f32)
    (h : (⟨3, ![a, b, n]⟩ : Shape).Reduces [2] (⟨2, ![a, b]⟩ : Shape)) (hφ : FKind.Formats .f32)
    (hacc : (0xFF800000#32 : BitVec 32) = 0xFF800000#32) (p : Fin a) (q : Fin b) :
    multiReduction .maximumf [2] (⟨2, ![a, b]⟩ : Shape) src 0xFF800000#32 h hφ hacc (ix2 p q)
      = (Finset.univ : Finset (Fin n)).fold max (Ideal.ofBits .f32 0xFF800000#32) (fun k => src (ix3 p q k)) :=
  (Ideal.multiReduction_maximumf_single src 0xFF800000#32 h hφ hacc (ix2 p q)).trans
    (congrArg (fun f => Finset.fold max (Ideal.ofBits .f32 0xFF800000#32) f Finset.univ)
      (funext fun k => congrArg src (lift_last h p q k)))

end Cert.Layer

end
-- ==== Proof.LibTrailingUnit.lean ====
/-
  Two layout steps read at an index, for a matrix carried as a column of its entries along a new last axis.

  A `[a, b]` matrix viewed as `[a, b, 1]` (a trailing unit axis) has the same row-major order, so its entry
  `(p, q, 0)` is the matrix's entry `(p, q)`.  Broadcasting `[a, b, 1]` along the last axis to `[a, b, n]` repeats
  each entry `n` times: the result's entry `(p, q, k)` is the operand's entry `(p, q, 0)` for every `k`.  Together
  they read `x[:, :, None]` broadcast against a last axis of extent `n` as `x(p, q)` at `(p, q, k)`.
-/
import Idealize.ShloMosaic.Lib.ValueIdx
import Idealize.ShloMosaic.Lib.Pipeline.Value

noncomputable section

namespace Cert.Lib.TrailingUnit

open Idealize.ShloMosaic Idealize.ShloMosaic.ValueIdx

variable {α : Type}

/-- A matrix viewed with a trailing unit axis reads `(p, q, 0)` at `(p, q)`: both indices have row-major position
    `p · b + q`. -/
theorem shapeCast_trailingUnit_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) := by
  refine shapeCast_apply x h (ix3 p q z) (ix2 p q) ?_
  rw [Shape.rowMajor_val_two, Shape.rowMajor_val_three]
  show p.val * b + q.val = (p.val * b + q.val) * 1 + z.val
  have hz : z.val = 0 := by have := z.isLt; omega
  omega

/-- A column `[a, b, 1]` broadcast along its last axis to `[a, b, n]` reads `(p, q, k)` at `(p, q, 0)`: the
    first two coordinates are kept (an axis of extent 1 only has the coordinate 0), the last is the unit axis's 0. -/
theorem broadcastTo_lastAxis_apply {a b n : ℕ} (x : (⟨3, ![a, b, 1]⟩ : Shape).Idx → α)
    (h : (⟨3, ![a, b, 1]⟩ : Shape).Broadcasts ⟨3, ![a, b, n]⟩) (p : Fin a) (q : Fin b) (k : Fin n) :
    broadcastTo ⟨3, ![a, b, n]⟩ x h (ix3 p q k) = x (ix3 p q (0 : Fin 1)) := by
  refine broadcastTo_apply x h (ix3 p q k) (ix3 p q (0 : Fin 1)) ?_
  intro d
  match d with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show 0 = if (1 : ℕ) = 1 then 0 else k.val
    rw [if_pos rfl]

end Cert.Lib.TrailingUnit

end
-- ==== Proof.KernelRow.lean ====
/-
  The kernel's body on a block, read at an entry: every batch element of the block goes through the layer.

  The body works on 64 batch elements at once (a block `v0` of shape 64 x 64 x 128) with the two weight matrices already
  transposed (`v20` is 8192 x 128, `v30` is 128 x 8192).  Each of its operations acts on every batch element
  separately, so entry (p, t, d) of what it computes depends on `v0` only through batch element `p`, the matrix
  `(s, e) ↦ v0[p, s, e]`.  The stages below are the body's own intermediate vectors, named; each lemma reads one stage at an
  entry and finds the corresponding stage of `Cert.Layer` on that batch element.  The change of float format between the
  stages is the identity on the extended reals.
-/
import proofs.«103078_j24764781429079_2_alg».proof.Proof.Gen.KernelIdeal.Skeleton
import proofs.«103078_j24764781429079_2_alg».proof.Proof.KernelProducts
import proofs.«103078_j24764781429079_2_alg».proof.Proof.Spec
import proofs.«103078_j24764781429079_2_alg».proof.Proof.LibReduceLast
import proofs.«103078_j24764781429079_2_alg».proof.Proof.LibTrailingUnit
import Idealize.ShloMosaic.Lib.Pipeline.Value

noncomputable section

namespace Cert.Layer.KernelRow

open Cert.KernelIdeal Cert.KernelIdeal.Gen Idealize.ShloMosaic Idealize.ShloMosaic.ValueIdx Cert.Lib.TrailingUnit Cert.Layer

/-- Batch element `p` of a block, as a 64 x 128 matrix. -/
def rowOf (v0 : Vec Ideal S64x64x128 .f32) (p : Fin 64) : Fin 64 → Fin 128 → EReal := fun t d => v0 (ix3 p t d)

/-! ## Layout steps at an entry -/

/-- A block flattened to 64 x 8192 reads (p, k) at (p, token of k, feature of k): the row-major positions agree. -/
theorem flatten_apply {α : Type} (v : S64x64x128.Idx → α) (h : S64x64x128.ShapeCasts S64x8192) (p : Fin 64) (k : Fin 8192) :
    shapeCast S64x8192 v h (ix2 p k) = v (ix3 p (tok k) (feat k)) := by
  refine shapeCast_apply v h (ix2 p k) (ix3 p (tok k) (feat k)) ?_
  rw [Shape.rowMajor_val_two, Shape.rowMajor_val_three]
  show (p.val * 64 + k.val / 128) * 128 + k.val % 128 = p.val * 8192 + k.val
  omega

/-- A 64 x 8192 array read as 64 x 64 x 128 reads (p, t, d) at (p, flat position of (t, d)). -/
theorem unflatten_apply {α : Type} (u : S64x8192.Idx → α) (h : S64x8192.ShapeCasts S64x64x128) (p t : Fin 64) (d : Fin 128) :
    shapeCast S64x64x128 u h (ix3 p t d) = u (ix2 p (flatPos t d)) := by
  refine shapeCast_apply u h (ix3 p t d) (ix2 p (flatPos t d)) ?_
  rw [Shape.rowMajor_val_two, Shape.rowMajor_val_three]
  show p.val * 8192 + (t.val * 128 + d.val) = (p.val * 64 + t.val) * 128 + d.val
  omega

/-- A length-128 vector placed as a row and repeated down 64 rows reads (p, j) at j. -/
theorem rowBias128_apply {α : Type} (v : S128.Idx → α) (h : S128.ShapeCasts S1x128) (h' : S1x128.Broadcasts S64x128) (p : Fin 64) (j : Fin 128) :
    broadcastTo S64x128 (shapeCast S1x128 v h) h' (ix2 p j) = v (ix1 j) := by
  refine (broadcastTo_apply _ h' (ix2 p j) (ix2 (0 : Fin 1) j) (fun a => match a with
    | ⟨0, _⟩ => by show 0 = (if (1 : Nat) = 1 then 0 else p.val); rw [if_pos rfl]
    | ⟨1, _⟩ => by show j.val = (if (128 : Nat) = 1 then 0 else j.val); rw [if_neg (by decide)])).trans ?_
  refine shapeCast_apply v h (ix2 (0 : Fin 1) j) (ix1 j) ?_
  rw [Shape.rowMajor_val_one, Shape.rowMajor_val_two]
  show j.val = 0 * 128 + j.val
  omega

/-- A length-8192 vector placed as a row and repeated down 64 rows reads (p, k) at k. -/
theorem rowBias8192_apply {α : Type} (v : S8192.Idx → α) (h : S8192.ShapeCasts S1x8192) (h' : S1x8192.Broadcasts S64x8192) (p : Fin 64) (k : Fin 8192) :
    broadcastTo S64x8192 (shapeCast S1x8192 v h) h' (ix2 p k) = v (ix1 k) := by
  refine (broadcastTo_apply _ h' (ix2 p k) (ix2 (0 : Fin 1) k) (fun a => match a with
    | ⟨0, _⟩ => by show 0 = (if (1 : Nat) = 1 then 0 else p.val); rw [if_pos rfl]
    | ⟨1, _⟩ => by show k.val = (if (8192 : Nat) = 1 then 0 else k.val); rw [if_neg (by decide)])).trans ?_
  refine shapeCast_apply v h (ix2 (0 : Fin 1) k) (ix1 k) ?_
  rw [Shape.rowMajor_val_one, Shape.rowMajor_val_two]
  show k.val = 0 * 8192 + k.val
  omega

/-! ## The body's stages -/

variable (v0 : Vec Ideal S64x64x128 .f32)

/-- Scaled scores of the block. -/
def scoresV : FVec Ideal S64x64x64 .f32 :=
  mulf (matmul dot_S64x64x128_S64x64x128_S64x64x64_2_2_1_1_0_0 none (truncf .bf16 v0 bitsLt_bf16_f32) (truncf .bf16 v0 bitsLt_bf16_f32) (constant S64x64x64 .f32 0x00000000#32))
    (broadcast S64x64x64 (Scalar.ofBits .f32 0x3DB504F3#32))

/-- Row maxima of the scores. -/
def maxV : FVec Ideal S64x64 .f32 :=
  maximumf (broadcast S64x64 (Scalar.ofBits .f32 0xFF800000#32))
    (multiReduction .maximumf [2] S64x64 (scoresV v0) 0xFF800000#32 reduces_S64x64x64_S64x64 (.inl rfl) rfl)

/-- Exponentials of the scores less their row maximum. -/
def expV : FVec Ideal S64x64x64 .f32 :=
  exp (subf (scoresV v0) (broadcastTo S64x64x64 (shapeCast S64x64x1 (maxV v0) shapeCasts_S64x64_S64x64x1) broadcasts_S64x64x1_S64x64x64))

/-- Softmax weights. -/
def attnV : FVec Ideal S64x64x64 .f32 :=
  divf (expV v0) (broadcastTo S64x64x64 (shapeCast S64x64x1 (multiReduction .add [2] S64x64 (expV v0) 0x00000000#32 reduces_S64x64x64_S64x64 (.inl rfl) rfl) shapeCasts_S64x64_S64x64x1) broadcasts_S64x64x1_S64x64x64)

/-- Attention output. -/
def mixV : FVec Ideal S64x64x128 .f32 :=
  matmul dot_S64x64x64_S64x64x128_S64x64x128_2_1_1_2_0_0 none (truncf .bf16 (attnV v0) bitsLt_bf16_f32) (truncf .bf16 v0 bitsLt_bf16_f32) (constant S64x64x128 .f32 0x00000000#32)

variable (v20 : Vec Ideal S8192x128 .bf16) (v23 : Vec Ideal S128 .f32) (v30 : Vec Ideal S128x8192 .bf16) (v33 : Vec Ideal S8192 .f32)

/-- Hidden layer. -/
def hidV : FVec Ideal S64x128 .f32 :=
  maximumf (addf (matmul dot_S64x8192_S8192x128_S64x128_1_0_0_1_n_n none (truncf .bf16 (shapeCast S64x8192 v0 shapeCasts_S64x64x128_S64x8192) bitsLt_bf16_f32) (shapeCast S8192x128 v20 shapeCasts_S8192x128_S8192x128 : FVec Ideal S8192x128 .bf16) (constant S64x128 .f32 0x00000000#32))
      (broadcastTo S64x128 (shapeCast S1x128 v23 shapeCasts_S128_S1x128) broadcasts_S1x128_S64x128))
    (broadcast S64x128 (Scalar.ofBits .f32 0x00000000#32))

/-- Perceptron output, flat. -/
def deepV : FVec Ideal S64x8192 .f32 :=
  addf (matmul dot_S64x128_S128x8192_S64x8192_1_0_0_1_n_n none (truncf .bf16 (hidV v0 v20 v23) bitsLt_bf16_f32) (shapeCast S128x8192 v30 shapeCasts_S128x8192_S128x8192 : FVec Ideal S128x8192 .bf16) (constant S64x8192 .f32 0x00000000#32))
    (broadcastTo S64x8192 (shapeCast S1x8192 v33 shapeCasts_S8192_S1x8192) broadcasts_S1x8192_S64x8192)

/-- The body's first part is the sum of the attention output, the perceptron output re-laid, and the block. -/
theorem pay2_eq : k0_pay2 (F := Ideal) v0 v20 v23 v30 v33
    = addf (addf (mixV v0) (shapeCast S64x64x128 (deepV v0 v20 v23 v30 v33) shapeCasts_S64x8192_S64x64x128)) v0 := rfl

/-! ## Each stage at an entry -/

theorem scoresV_apply (p t s : Fin 64) : scoresV v0 (ix3 p t s) = scores (rowOf v0 p) t s := by
  unfold scoresV
  rw [mulf_apply, KernelProducts.scores_apply]
  rfl

theorem maxV_apply (p t : Fin 64) : maxV v0 (ix2 p t) = rowMax (rowOf v0 p) t := by
  unfold maxV
  rw [maximumf_apply, maxLast_apply]
  have hf : (fun k : Fin 64 => scoresV v0 (ix3 p t k)) = fun s : Fin 64 => scores (rowOf v0 p) t s :=
    funext fun k => scoresV_apply v0 p t k
  rw [hf]
  rfl

theorem expV_apply (p t s : Fin 64) : expV v0 (ix3 p t s) = expo (rowOf v0 p) t s := by
  unfold expV
  show Ideal.exp (scoresV v0 (ix3 p t s) - broadcastTo S64x64x64 (shapeCast S64x64x1 (maxV v0) shapeCasts_S64x64_S64x64x1) broadcasts_S64x64x1_S64x64x64 (ix3 p t s)) = _
  rw [broadcastTo_lastAxis_apply, shapeCast_trailingUnit_apply, scoresV_apply, maxV_apply]
  rfl

theorem attnV_apply (p t s : Fin 64) : attnV v0 (ix3 p t s) = attn (rowOf v0 p) t s := by
  unfold attnV
  rw [divf_apply, broadcastTo_lastAxis_apply, shapeCast_trailingUnit_apply, sumLast_apply, expV_apply]
  unfold attn
  exact congrArg (Ideal.div _) (Finset.sum_congr rfl fun k _ => expV_apply v0 p t k)

theorem mixV_apply (p t : Fin 64) (d : Fin 128) : mixV v0 (ix3 p t d) = attnOut (rowOf v0 p) t d := by
  unfold mixV
  rw [KernelProducts.mix_apply]
  unfold attnOut
  refine Finset.sum_congr rfl fun s _ => ?_
  rw [truncf_apply, truncf_apply, attnV_apply]
  rfl

theorem hidV_apply (p : Fin 64) (j : Fin 128) :
    hidV v0 v20 v23 (ix2 p j) = hidden (rowOf v0 p) (fun j k => v20 (ix2 k j)) (fun j => v23 (ix1 j)) j := by
  unfold hidV
  rw [maximumf_apply, addf_apply, KernelProducts.hid_apply, rowBias128_apply]
  unfold hidden
  refine congrArg (fun z => max (z + v23 (ix1 j)) _) (Finset.sum_congr rfl fun k _ => ?_)
  rw [truncf_apply, flatten_apply, shapeCast_self]
  rfl

theorem deepV_apply (p : Fin 64) (k : Fin 8192) :
    deepV v0 v20 v23 v30 v33 (ix2 p k)
      = deep (rowOf v0 p) (fun j k => v20 (ix2 k j)) (fun j => v23 (ix1 j)) (fun k j => v30 (ix2 j k)) (fun k => v33 (ix1 k)) k := by
  unfold deepV
  rw [addf_apply, KernelProducts.out_apply, rowBias8192_apply]
  unfold deep
  refine congrArg (· + v33 (ix1 k)) (Finset.sum_congr rfl fun j _ => ?_)
  rw [truncf_apply, hidV_apply, shapeCast_self]

/-- Entry (p, t, d) of the body's first part is the residual sum of the layer on batch element `p`. -/
theorem pay2_apply (p t : Fin 64) (d : Fin 128) :
    k0_pay2 (F := Ideal) v0 v20 v23 v30 v33 (ix3 p t d)
      = resid (rowOf v0 p) (fun j k => v20 (ix2 k j)) (fun j => v23 (ix1 j)) (fun k j => v30 (ix2 j k)) (fun k => v33 (ix1 k)) t d := by
  rw [pay2_eq, addf_apply, addf_apply, mixV_apply, unflatten_apply, deepV_apply]
  rfl

end Cert.Layer.KernelRow

end
-- ==== Proof.KernelNorm.lean ====
/-
  The body's last part, the row normalisation, read at an entry; and with it the whole block the body leaves.

  The generated value leg reads the block the body stores as one function of the block index: at (p, t, d) it is
  `(y - mean) * rsqrt (var + eps) * gamma[d] + beta[d]`, where `y` is the body's first part (attention plus
  perceptron plus input), the mean is the row sum of `y` over the 128 features divided by 128, and the variance is
  the row sum of the squared deviations divided by 128.  The row sums are finite sums of entries (p, t, k) over k, so
  entry (p, t, d) of the stored block is the layer on batch element `p` of the input block, at (t, d).
-/
import proofs.«103078_j24764781429079_2_alg».proof.Proof.Gen.KernelIdeal.Value
import proofs.«103078_j24764781429079_2_alg».proof.Proof.KernelRow

noncomputable section

namespace Cert.Layer.KernelNorm

open Cert.KernelIdeal Cert.KernelIdeal.Gen Idealize.ShloMosaic Idealize.ShloMosaic.ValueIdx Cert.Lib.TrailingUnit Cert.Layer
open Cert.Layer.KernelRow

/-- Two indices of a shape of rank one are equal when the coordinate is, by computation. -/
local macro "coords1" : tactic => `(tactic| (funext a; apply Fin.ext; match a with | ⟨0, _⟩ => rfl))
/-- The same at rank two. -/
local macro "coords2" : tactic => `(tactic| (funext a; apply Fin.ext; match a with | ⟨0, _⟩ => rfl | ⟨1, _⟩ => rfl))
/-- The same at rank three. -/
local macro "coords3" : tactic => `(tactic| (funext a; apply Fin.ext; match a with | ⟨0, _⟩ => rfl | ⟨1, _⟩ => rfl | ⟨2, _⟩ => rfl))

variable (Y : FVec Ideal S64x64x128 .f32)

/-- Row sums over the features. -/
def sumV : FVec Ideal S64x64 .f32 :=
  multiReduction .add [2] S64x64 Y 0x00000000#32 reduces_S64x64x128_S64x64 (.inl rfl) rfl

/-- Deviations from the row mean. -/
def devV : FVec Ideal S64x64x128 .f32 :=
  subf Y (broadcastTo S64x64x128 (divf (shapeCast S64x64x1 (sumV Y) shapeCasts_S64x64_S64x64x1) (broadcast S64x64x1 (Scalar.ofBits .f32 0x43000000#32))) broadcasts_S64x64x1_S64x64x128)

theorem sumV_apply (p t : Fin 64) : sumV Y (ix2 p t) = ∑ d : Fin 128, Y (ix3 p t d) := by
  unfold sumV
  exact sumLast_apply Y _ _ _ p t

theorem devV_apply (p t : Fin 64) (d : Fin 128) :
    devV Y (ix3 p t d) = Y (ix3 p t d) - Ideal.div (∑ k : Fin 128, Y (ix3 p t k)) c128 := by
  unfold devV
  rw [subf_apply, broadcastTo_lastAxis_apply, divf_apply, shapeCast_trailingUnit_apply, sumV_apply]
  rfl

variable (P0 : Vec Ideal S64x64x128 .f32) (P1 : Vec Ideal S8192x128 .bf16) (P2 : Vec Ideal S128 .f32) (P3 : Vec Ideal S128x8192 .bf16)
  (P4 : Vec Ideal S8192 .f32) (P5 : Vec Ideal S128 .f32) (P6 : Vec Ideal S128 .f32)

/-- The stored block, with the row sums and deviations named. -/
theorem E7_eq (y : S64x64x128.Idx) :
    Value.E7 (F := Ideal) P0 P1 P2 P3 P4 P5 P6 y
      = FloatOps.addf (FloatOps.mulf (FloatOps.mulf
          (FloatOps.subf (k0_pay2 (F := Ideal) P0 P1 P2 P3 P4 (Value.ix7_0 y))
            (FloatOps.divf (sumV (k0_pay2 (F := Ideal) P0 P1 P2 P3 P4) (Value.ix7_1 y)) (Scalar.ofBits .f32 0x43000000#32)))
          (FloatOps.rsqrt (FloatOps.addf
            (FloatOps.divf (sumV (mulf (devV (k0_pay2 (F := Ideal) P0 P1 P2 P3 P4)) (devV (k0_pay2 (F := Ideal) P0 P1 P2 P3 P4))) (Value.ix7_2 y)) (Scalar.ofBits .f32 0x43000000#32))
            (Scalar.ofBits .f32 0x3727C5AC#32))))
          (P5 (Value.ix7_3 y))) (P6 (Value.ix7_4 y)) := rfl

/-- Entry (p, t, d) of the stored block is the layer on batch element `p` of the input block. -/
theorem E7_apply (p t : Fin 64) (d : Fin 128) :
    Value.E7 (F := Ideal) P0 P1 P2 P3 P4 P5 P6 (ix3 p t d)
      = layer (rowOf P0 p) (fun j k => P1 (ix2 k j)) (fun j => P2 (ix1 j)) (fun k j => P3 (ix2 j k)) (fun k => P4 (ix1 k))
          (fun d => P5 (ix1 d)) (fun d => P6 (ix1 d)) t d := by
  have e0 : Value.ix7_0 (ix3 p t d) = ix3 p t d := by coords3
  have e1 : Value.ix7_1 (ix3 p t d) = ix2 p t := by coords2
  have e2 : Value.ix7_2 (ix3 p t d) = ix2 p t := by coords2
  have e3 : Value.ix7_3 (ix3 p t d) = ix1 d := by coords1
  have e4 : Value.ix7_4 (ix3 p t d) = ix1 d := by coords1
  rw [E7_eq, e0, e1, e2, e3, e4, sumV_apply, sumV_apply]
  have hY : ∀ k : Fin 128, k0_pay2 (F := Ideal) P0 P1 P2 P3 P4 (ix3 p t k)
      = resid (rowOf P0 p) (fun j k => P1 (ix2 k j)) (fun j => P2 (ix1 j)) (fun k j => P3 (ix2 j k)) (fun k => P4 (ix1 k)) t k :=
    fun k => pay2_apply P0 P1 P2 P3 P4 p t k
  have hsq : ∀ k : Fin 128, mulf (devV (k0_pay2 (F := Ideal) P0 P1 P2 P3 P4)) (devV (k0_pay2 (F := Ideal) P0 P1 P2 P3 P4)) (ix3 p t k)
      = (resid (rowOf P0 p) (fun j k => P1 (ix2 k j)) (fun j => P2 (ix1 j)) (fun k j => P3 (ix2 j k)) (fun k => P4 (ix1 k)) t k
          - mean (resid (rowOf P0 p) (fun j k => P1 (ix2 k j)) (fun j => P2 (ix1 j)) (fun k j => P3 (ix2 j k)) (fun k => P4 (ix1 k))) t)
        * (resid (rowOf P0 p) (fun j k => P1 (ix2 k j)) (fun j => P2 (ix1 j)) (fun k j => P3 (ix2 j k)) (fun k => P4 (ix1 k)) t k
          - mean (resid (rowOf P0 p) (fun j k => P1 (ix2 k j)) (fun j => P2 (ix1 j)) (fun k j => P3 (ix2 j k)) (fun k => P4 (ix1 k))) t) :=
    fun k => by
      rw [mulf_apply, devV_apply]
      simp only [hY]
      rfl
  simp only [hY, hsq]
  rfl

end Cert.Layer.KernelNorm

end
-- ==== Proof.Whole.lean ====
/-
  The layer on the whole batch: entry (b, t, d) of the result is the layer on batch element `b` of the input, at (t, d).

  The arrays are the seven arguments as they are given: the input [4096, 64, 128], the first weight matrix [128, 8192]
  (hidden unit by flat position), its bias [128], the second weight matrix [8192, 128] (flat position by hidden unit), its
  bias [8192], and the scale and shift [128] of the normalisation.
-/
import proofs.«103078_j24764781429079_2_alg».proof.Proof.Spec

noncomputable section

namespace Cert.Layer

open Idealize.ShloMosaic Idealize.ShloMosaic.ValueIdx

/-- The result array as one function of the argument arrays, index by index. -/
def whole (X : (⟨3, ![4096, 64, 128]⟩ : Shape).Idx → EReal) (W1 : (⟨2, ![128, 8192]⟩ : Shape).Idx → EReal)
    (B1 : (⟨1, ![128]⟩ : Shape).Idx → EReal) (W2 : (⟨2, ![8192, 128]⟩ : Shape).Idx → EReal)
    (B2 : (⟨1, ![8192]⟩ : Shape).Idx → EReal) (Γ Β : (⟨1, ![128]⟩ : Shape).Idx → EReal) :
    (⟨3, ![4096, 64, 128]⟩ : Shape).Idx → EReal :=
  fun i => layer (fun s e => X (ix3 (i 0 : Fin 4096) s e)) (fun j k => W1 (ix2 j k)) (fun j => B1 (ix1 j))
    (fun k j => W2 (ix2 k j)) (fun k => B2 (ix1 k)) (fun d => Γ (ix1 d)) (fun d => Β (ix1 d)) (i 1 : Fin 64) (i 2 : Fin 128)

/-- At an index given by its coordinates. -/
theorem whole_apply (X : (⟨3, ![4096, 64, 128]⟩ : Shape).Idx → EReal) (W1 : (⟨2, ![128, 8192]⟩ : Shape).Idx → EReal)
    (B1 : (⟨1, ![128]⟩ : Shape).Idx → EReal) (W2 : (⟨2, ![8192, 128]⟩ : Shape).Idx → EReal)
    (B2 : (⟨1, ![8192]⟩ : Shape).Idx → EReal) (Γ Β : (⟨1, ![128]⟩ : Shape).Idx → EReal) (b : Fin 4096) (t : Fin 64) (d : Fin 128) :
    whole X W1 B1 W2 B2 Γ Β (ix3 b t d)
      = layer (fun s e => X (ix3 b s e)) (fun j k => W1 (ix2 j k)) (fun j => B1 (ix1 j))
          (fun k j => W2 (ix2 k j)) (fun k => B2 (ix1 k)) (fun d => Γ (ix1 d)) (fun d => Β (ix1 d)) t d := rfl

end Cert.Layer

end
-- ==== Proof.KernelArray.lean ====
/-
  From blocks to the array: the kernel's result is the layer on the whole batch.

  The grid has 64 points; point `t` takes batch elements 64 t .. 64 t + 63 of the input as its block and writes the same
  batch elements of the result; the weights, biases, scale and shift are staged whole at every point.  Before the grid the
  two weight matrices are transposed (and their float format changed, which is the identity on the extended reals), so the
  body's `v20[k, j]` is the first weight matrix at (j, k) and its `v30[j, k]` the second at (k, j).  Entry (p, t', d) of
  what point `t` writes is therefore the layer on batch element 64 t + p, and the 64 blocks tile the result array.
-/
import proofs.«103078_j24764781429079_2_alg».proof.Proof.Gen.KernelIdeal.Value
import proofs.«103078_j24764781429079_2_alg».proof.Proof.KernelNorm
import proofs.«103078_j24764781429079_2_alg».proof.Proof.Whole
import Idealize.ShloMosaic.Lib.StableHlo.Run

set_option maxRecDepth 16384

noncomputable section

namespace Cert.Layer.KernelArray

open Cert.KernelIdeal Cert.KernelIdeal.Gen Idealize.ShloMosaic Idealize.ShloMosaic.TcCoe Idealize.SL.Sem
open Idealize.ShloMosaic.ValueIdx Cert.Layer Cert.Layer.KernelRow
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## What the body stores, from its operand blocks -/

/-- Entry (p, s, d) of the block the body leaves is the layer on batch element `p` of its input block, with the weights
    read through their transposed blocks. -/
theorem out_apply (x0 : Vec Ideal S64x64x128 .f32) (x1 : Vec Ideal S8192x128 .bf16) (x2 : Vec Ideal S128 .f32)
    (x3 : Vec Ideal S128x8192 .bf16) (x4 : Vec Ideal S8192 .f32) (x5 : Vec Ideal S128 .f32) (x6 : Vec Ideal S128 .f32)
    (p s : Fin 64) (d : Fin 128) :
    out0_7 (F := Ideal) x0 x1 x2 x3 x4 x5 x6 (ix3 p s d)
      = layer (rowOf x0 p) (fun j k => x1 (ix2 k j)) (fun j => x2 (ix1 j)) (fun k j => x3 (ix2 j k)) (fun k => x4 (ix1 k))
          (fun d => x5 (ix1 d)) (fun d => x6 (ix1 d)) s d := by
  have l0 : View.ld x0 r0_0 = x0 := View.ld_unit_zero (S := S64x64x128) hz3 _ x0
  have l1 : View.ld x1 r0_1 = x1 := View.ld_unit_zero (S := S8192x128) hz2 _ x1
  have l2 : View.ld x2 r0_2 = x2 := View.ld_unit_zero (S := S128) hz1 _ x2
  have l3 : View.ld x3 r0_3 = x3 := View.ld_unit_zero (S := S128x8192) hz2 _ x3
  have l4 : View.ld x4 r0_4 = x4 := View.ld_unit_zero (S := S8192) hz1 _ x4
  have l5 : View.ld x5 r0_2 = x5 := View.ld_unit_zero (S := S128) hz1 _ x5
  have l6 : View.ld x6 r0_2 = x6 := View.ld_unit_zero (S := S128) hz1 _ x6
  unfold out0_7
  rw [Value.canon7_eq, KernelNorm.E7_apply, l0, l1, l2, l3, l4, l5, l6]

/-! ## The windows' blocks -/

/-- The printed index maps, decided over the grid: the input and the result move with the point along the batch axis; every
    other window stays at block 0. -/
theorem idx_facts : ∀ t : Fin cfg0.N,
    win0_0.index t (0 : Fin 3) = t.val ∧ win0_0.index t (1 : Fin 3) = 0 ∧ win0_0.index t (2 : Fin 3) = 0
    ∧ win0_7.index t (0 : Fin 3) = t.val ∧ win0_7.index t (1 : Fin 3) = 0 ∧ win0_7.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0 :=
  (by decide +kernel : ∀ t : Fin grid0.N, _)

/-- The batch element that point `t` sees as element `p` of its block. -/
def batchAt (t : Fin cfg0.N) (p : Fin 64) : Fin 4096 :=
  ⟨t.val * 64 + p.val, by have h : t.val < 64 := lt_of_lt_of_eq t.isLt N_0; have := p.isLt; omega⟩

theorem read0 (c : Dev nD) (t : Fin cfg0.N) (p s : Fin 64) (e : Fin 128) :
    iblk m c 0 t (ix3 p s e) = V m c main_arg0 (ix3 (batchAt t p) s e) := by
  show V m c main_arg0 (((cfg0.win 0).blk t).view.emb (ix3 p s e)) = _
  refine congrArg (V m c main_arg0) ?_
  obtain ⟨h0, h1, h2, -⟩ := idx_facts t
  funext a; apply Fin.ext
  match a with
  | ⟨0, _⟩ => show win0_0.index t (0 : Fin 3) * 64 + 1 * p.val = t.val * 64 + p.val; omega
  | ⟨1, _⟩ => show win0_0.index t (1 : Fin 3) * 64 + 1 * s.val = s.val; omega
  | ⟨2, _⟩ => show win0_0.index t (2 : Fin 3) * 128 + 1 * e.val = e.val; omega

theorem read1 (c : Dev nD) (t : Fin cfg0.N) (k : Fin 8192) (j : Fin 128) :
    iblk m c 1 t (ix2 k j) = V m c main_v1 (ix2 k j) := by
  show V m c main_v1 (((cfg0.win 1).blk t).view.emb (ix2 k j)) = _
  refine congrArg (V m c main_v1) ?_
  obtain ⟨-, -, -, -, -, -, h0, h1, -⟩ := idx_facts t
  funext a; apply Fin.ext
  match a with
  | ⟨0, _⟩ => show win0_1.index t (0 : Fin 2) * 8192 + 1 * k.val = k.val; omega
  | ⟨1, _⟩ => show win0_1.index t (1 : Fin 2) * 128 + 1 * j.val = j.val; omega

theorem read2 (c : Dev nD) (t : Fin cfg0.N) (j : Fin 128) : iblk m c 2 t (ix1 j) = V m c main_arg2 (ix1 j) := by
  show V m c main_arg2 (((cfg0.win 2).blk t).view.emb (ix1 j)) = _
  refine congrArg (V m c main_arg2) ?_
  obtain ⟨-, -, -, -, -, -, -, -, h0, -⟩ := idx_facts t
  funext a; apply Fin.ext
  match a with
  | ⟨0, _⟩ => show win0_2.index t (0 : Fin 1) * 128 + 1 * j.val = j.val; omega

theorem read3 (c : Dev nD) (t : Fin cfg0.N) (j : Fin 128) (k : Fin 8192) :
    iblk m c 3 t (ix2 j k) = V m c main_v3 (ix2 j k) := by
  show V m c main_v3 (((cfg0.win 3).blk t).view.emb (ix2 j k)) = _
  refine congrArg (V m c main_v3) ?_
  obtain ⟨-, -, -, -, -, -, -, -, -, h0, h1, -⟩ := idx_facts t
  funext a; apply Fin.ext
  match a with
  | ⟨0, _⟩ => show win0_3.index t (0 : Fin 2) * 128 + 1 * j.val = j.val; omega
  | ⟨1, _⟩ => show win0_3.index t (1 : Fin 2) * 8192 + 1 * k.val = k.val; omega

theorem read4 (c : Dev nD) (t : Fin cfg0.N) (k : Fin 8192) : iblk m c 4 t (ix1 k) = V m c main_arg4 (ix1 k) := by
  show V m c main_arg4 (((cfg0.win 4).blk t).view.emb (ix1 k)) = _
  refine congrArg (V m c main_arg4) ?_
  obtain ⟨-, -, -, -, -, -, -, -, -, -, -, h0, -⟩ := idx_facts t
  funext a; apply Fin.ext
  match a with
  | ⟨0, _⟩ => show win0_4.index t (0 : Fin 1) * 8192 + 1 * k.val = k.val; omega

theorem read5 (c : Dev nD) (t : Fin cfg0.N) (d : Fin 128) : iblk m c 5 t (ix1 d) = V m c main_arg5 (ix1 d) := by
  show V m c main_arg5 (((cfg0.win 5).blk t).view.emb (ix1 d)) = _
  refine congrArg (V m c main_arg5) ?_
  obtain ⟨-, -, -, -, -, -, -, -, -, -, -, -, h0, -⟩ := idx_facts t
  funext a; apply Fin.ext
  match a with
  | ⟨0, _⟩ => show win0_5.index t (0 : Fin 1) * 128 + 1 * d.val = d.val; omega

theorem read6 (c : Dev nD) (t : Fin cfg0.N) (d : Fin 128) : iblk m c 6 t (ix1 d) = V m c main_arg6 (ix1 d) := by
  show V m c main_arg6 (((cfg0.win 6).blk t).view.emb (ix1 d)) = _
  refine congrArg (V m c main_arg6) ?_
  obtain ⟨-, -, -, -, -, -, -, -, -, -, -, -, -, h0⟩ := idx_facts t
  funext a; apply Fin.ext
  match a with
  | ⟨0, _⟩ => show win0_6.index t (0 : Fin 1) * 128 + 1 * d.val = d.val; omega

/-! ## The transposed weights the region finds -/

theorem w1t_apply (c : Dev nD) (k : Fin 8192) (j : Fin 128) :
    (V m c main_v1 : S8192x128.Idx → EReal) (ix2 k j) = m ((c : Thread nD τ).loc main_arg1) (ix2 j k) := by
  have e : @Eq (FVec Ideal S8192x128 .bf16) (V m c main_v1)
      (truncf .bf16 (transpose S8192x128 [1, 0] (m ((c : Thread nD τ).loc main_arg1) : FVec Ideal S128x8192 .f32) transposes_S128x8192_S8192x128_1_0) bitsLt_bf16_f32) := by
    dsimp only [Gen.V, Gen.hostOps0]
    after_results
  rw [e]
  exact transpose_apply [1, 0] (m ((c : Thread nD τ).loc main_arg1) : FVec Ideal S128x8192 .f32) transposes_S128x8192_S8192x128_1_0 (ix2 k j) (ix2 j k) (fun b => match b with
    | ⟨0, _⟩ => rfl
    | ⟨1, _⟩ => rfl)

theorem w2t_apply (c : Dev nD) (j : Fin 128) (k : Fin 8192) :
    (V m c main_v3 : S128x8192.Idx → EReal) (ix2 j k) = m ((c : Thread nD τ).loc main_arg3) (ix2 k j) := by
  have e : @Eq (FVec Ideal S128x8192 .bf16) (V m c main_v3)
      (truncf .bf16 (transpose S128x8192 [1, 0] (m ((c : Thread nD τ).loc main_arg3) : FVec Ideal S8192x128 .f32) transposes_S8192x128_S128x8192_1_0) bitsLt_bf16_f32) := by
    dsimp only [Gen.V, Gen.hostOps0]
    after_results
  rw [e]
  exact transpose_apply [1, 0] (m ((c : Thread nD τ).loc main_arg3) : FVec Ideal S8192x128 .f32) transposes_S8192x128_S128x8192_1_0 (ix2 j k) (ix2 k j) (fun b => match b with
    | ⟨0, _⟩ => rfl
    | ⟨1, _⟩ => rfl)

/-! ## What each point writes back, the cover, and the array after the run -/

/-- The layer on the whole batch, of core `c`'s seven argument arrays as launched. -/
abbrev result (c : Dev nD) : S4096x64x128.Idx → EReal :=
  whole (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- Entry (p, s, d) of point `t`'s block of the result array is entry (64 t + p, s, d) of the array. -/
theorem emb7 (t : Fin cfg0.N) (p s : Fin 64) (d : Fin 128) :
    ((cfg0.win 7).blk t).view.emb (ix3 p s d) = ix3 (batchAt t p) s d := by
  obtain ⟨-, -, -, h0, h1, h2, -⟩ := idx_facts t
  funext a; apply Fin.ext
  match a with
  | ⟨0, _⟩ => show win0_7.index t (0 : Fin 3) * 64 + 1 * p.val = t.val * 64 + p.val; omega
  | ⟨1, _⟩ => show win0_7.index t (1 : Fin 3) * 64 + 1 * s.val = s.val; omega
  | ⟨2, _⟩ => show win0_7.index t (2 : Fin 3) * 128 + 1 * d.val = d.val; omega

/-- What point `t` writes back is block `t` of the layer on the whole batch. -/
theorem flushed_eq (c : Dev nD) (t : Fin cfg0.N) :
    (dats m 0 c).flushed 7 t = ((cfg0.win 7).blk t).view.read (Elt Ideal) (result m c) := by
  rw [Value.flushed7]
  funext j
  obtain ⟨p, s, d, rfl⟩ : ∃ (p s : Fin 64) (d : Fin 128), j = ix3 p s d := ⟨j 0, j 1, j 2, eq_ix3 (n0 := 64) (n1 := 64) (n2 := 128) j⟩
  show out0_7 (F := Ideal) (iblk m c 0 t) (iblk m c 1 t) (iblk m c 2 t) (iblk m c 3 t) (iblk m c 4 t) (iblk m c 5 t) (iblk m c 6 t) (ix3 p s d)
    = result m c (((cfg0.win 7).blk t).view.emb (ix3 p s d))
  refine (out_apply (iblk m c 0 t) (iblk m c 1 t) (iblk m c 2 t) (iblk m c 3 t) (iblk m c 4 t) (iblk m c 5 t) (iblk m c 6 t) p s d).trans ?_
  refine Eq.trans ?_ (congrArg (result m c) (emb7 t p s d)).symm
  refine Eq.trans ?_ (whole_apply _ _ _ _ _ _ _ (batchAt t p) s d).symm
  have hX : rowOf (iblk m c 0 t) p = fun s e => m ((c : Thread nD τ).loc main_arg0) (ix3 (batchAt t p) s e) :=
    funext fun s => funext fun e => (read0 m c t p s e).trans (by rw [V_main_arg0])
  have hW1 : (fun (j : Fin 128) (k : Fin 8192) => iblk m c 1 t (ix2 k j)) = fun j k => m ((c : Thread nD τ).loc main_arg1) (ix2 j k) :=
    funext fun j => funext fun k => (read1 m c t k j).trans (w1t_apply m c k j)
  have hB1 : (fun (j : Fin 128) => iblk m c 2 t (ix1 j)) = fun j => m ((c : Thread nD τ).loc main_arg2) (ix1 j) :=
    funext fun j => (read2 m c t j).trans (by rw [V_main_arg2])
  have hW2 : (fun (k : Fin 8192) (j : Fin 128) => iblk m c 3 t (ix2 j k)) = fun k j => m ((c : Thread nD τ).loc main_arg3) (ix2 k j) :=
    funext fun k => funext fun j => (read3 m c t j k).trans (w2t_apply m c j k)
  have hB2 : (fun (k : Fin 8192) => iblk m c 4 t (ix1 k)) = fun k => m ((c : Thread nD τ).loc main_arg4) (ix1 k) :=
    funext fun k => (read4 m c t k).trans (by rw [V_main_arg4])
  have hG : (fun (d : Fin 128) => iblk m c 5 t (ix1 d)) = fun d => m ((c : Thread nD τ).loc main_arg5) (ix1 d) :=
    funext fun d => (read5 m c t d).trans (by rw [V_main_arg5])
  have hB : (fun (d : Fin 128) => iblk m c 6 t (ix1 d)) = fun d => m ((c : Thread nD τ).loc main_arg6) (ix1 d) :=
    funext fun d => (read6 m c t d).trans (by rw [V_main_arg6])
  rw [hX, hW1, hB1, hW2, hB2, hG, hB]

/-- An index of the result array is in point `t`'s block iff each coordinate is in the block's range on its axis. -/
theorem mem_blk7 (t : Fin cfg0.N) (i : S4096x64x128.Idx) :
    i ∈ ((cfg0.win 7).blk t).view.set ↔ ∀ a : Fin 3, win0_7.index t a * S64x64x128.size a ≤ (i a).val ∧ (i a).val < win0_7.index t a * S64x64x128.size a + S64x64x128.size a := by
  show i ∈ ((View.whole main_v4).slice (win0_7.rect t)).set ↔ _
  rw [View.set_slice_whole, Rect.mem_set_unit]
  exact Iff.rfl

/-- Every block index along the batch axis is some point's (decided over the grid). -/
theorem idx_onto7 : ∀ q : Fin 64, ∃ t : Fin cfg0.N, win0_7.index t = ![q.val, 0, 0] :=
  (by decide +kernel : ∀ q : Fin 64, ∃ t : Fin grid0.N, win0_7.index t = ![q.val, 0, 0])

/-- The 64 blocks tile the result array: batch element `b` is in the block of point `b / 64`. -/
theorem cover7 (i : S4096x64x128.Idx) : ∃ t : Fin cfg0.N, (cfg0.win 7).flush t = true ∧ i ∈ ((cfg0.win 7).blk t).view.set := by
  have hi0 : (i 0).val < 4096 := (i 0).isLt
  have hi1 : (i 1).val < 64 := (i 1).isLt
  have hi2 : (i 2).val < 128 := (i 2).isLt
  obtain ⟨t, ht⟩ := idx_onto7 ⟨(i 0).val / 64, by omega⟩
  have q0 : win0_7.index t (0 : Fin 3) = (i 0).val / 64 := congrFun ht 0
  have q1 : win0_7.index t (1 : Fin 3) = 0 := congrFun ht 1
  have q2 : win0_7.index t (2 : Fin 3) = 0 := congrFun ht 2
  refine ⟨t, flush0_7 t, ?_⟩
  rw [mem_blk7]
  intro a
  match a with
  | ⟨0, _⟩ => show win0_7.index t (0 : Fin 3) * 64 ≤ (i 0).val ∧ (i 0).val < win0_7.index t (0 : Fin 3) * 64 + 64; omega
  | ⟨1, _⟩ => show win0_7.index t (1 : Fin 3) * 64 ≤ (i 1).val ∧ (i 1).val < win0_7.index t (1 : Fin 3) * 64 + 64; omega
  | ⟨2, _⟩ => show win0_7.index t (2 : Fin 3) * 128 ≤ (i 2).val ∧ (i 2).val < win0_7.index t (2 : Fin 3) * 128 + 128; omega

/-- The result array after the run is the layer on the whole batch. -/
theorem final7 (c : Dev nD) : (dats m 0 c).arrAt 7 cfg0.N = result m c :=
  (dats m 0 c).arrAt_eq_of_cover 7 (result m c) (fun t _ => flushed_eq m c t) (fun i => cover7 i)

/-- The kernel's run: the result array ends at the layer on the whole batch, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2⟩) (Value.run_blocks m ρ)

end Cert.Layer.KernelArray

end
-- ==== Proof.ReferenceRow.lean ====
/-
  The reference on the whole batch, read at an entry: batch element `b` goes through the layer.

  The reference's operations act on all 4096 batch elements at once, each one separately; entry (b, t, d) of a stage
  depends on the input only through batch element `b`, the matrix `(s, e) ↦ x0[b, s, e]`.  Each lemma reads one stage of
  the reference (a few of its operations) at an entry and finds the corresponding stage of `Cert.Layer`.  A host sum
  starts from its zero initial value, which adds nothing.
-/
import proofs.«103078_j24764781429079_2_alg».proof.Proof.Gen.ReferenceIdeal.Read
import proofs.«103078_j24764781429079_2_alg».proof.Proof.Spec
import proofs.«103078_j24764781429079_2_alg».proof.Proof.LibReduceLast

noncomputable section

namespace Cert.Layer.ReferenceRow

open Cert.ReferenceIdeal Cert.ReferenceIdeal.Gen Cert.ReferenceIdeal.Read Idealize.ShloMosaic Idealize.ShloMosaic.ValueIdx Cert.Layer

/-- Two indices of a shape of rank one are equal when the coordinate is, by computation. -/
local macro "coords1" : tactic => `(tactic| (funext a; apply Fin.ext; match a with | ⟨0, _⟩ => rfl))
/-- The same at rank two. -/
local macro "coords2" : tactic => `(tactic| (funext a; apply Fin.ext; match a with | ⟨0, _⟩ => rfl | ⟨1, _⟩ => rfl))
/-- The same at rank three. -/
local macro "coords3" : tactic => `(tactic| (funext a; apply Fin.ext; match a with | ⟨0, _⟩ => rfl | ⟨1, _⟩ => rfl | ⟨2, _⟩ => rfl))

variable (x0 : (⟨S4096x64x128, .f32⟩ : BufTy).Contents (Elt Ideal))

/-- Batch element `b` of the input, as a 64 x 128 matrix. -/
def batchOf (b : Fin 4096) : Fin 64 → Fin 128 → EReal := fun t d => x0 (ix3 b t d)

/-! ## Attention -/

theorem scores_ref (b : Fin 4096) (t s : Fin 64) : val_main_v2 (F := Ideal) x0 (ix3 b t s) = scores (batchOf x0 b) t s := by
  rw [val_main_v2_apply, val_main_v0_apply, val_main_v1_apply, val_main_cst_apply]
  unfold scores
  refine congrArg (· * Ideal.ofBits .f32 0x3DB504F3#32) (Finset.sum_congr rfl fun k _ => ?_)
  have e1 : lidx_main_v0 (ix3 b t s) k = ix3 b t k := by coords3
  have e2 : ridx_main_v0 (ix3 b t s) k = ix3 b s k := by coords3
  rw [e1, e2]
  rfl

theorem rowMax_ref (b : Fin 4096) (t : Fin 64) : val_main_v5 (F := Ideal) x0 (ix2 b t) = rowMax (batchOf x0 b) t := by
  have hred : S4096x64x64.Reduces [2] S4096x64 := by decide
  rw [val_main_v5_apply, val_main_v4_apply, val_main_cst_1_apply]
  unfold val_main_v3
  rw [Host.reduce_eq_fold_single FloatOps.maximumf _ _ reducesTo_S4096x64x64_S4096x64_d2 hred h_S_]
  have hf : (val_main_v2 (F := Ideal) x0 ∘ hred.lift (ix2 b t)) = fun s : Fin 64 => scores (batchOf x0 b) t s :=
    funext fun k => by
      show val_main_v2 (F := Ideal) x0 (hred.lift (ix2 b t) k) = _
      rw [lift_last hred b t k]
      exact scores_ref x0 b t _
  rw [hf]
  rfl

theorem expo_ref (b : Fin 4096) (t s : Fin 64) : val_main_v9 (F := Ideal) x0 (ix3 b t s) = expo (batchOf x0 b) t s := by
  rw [val_main_v9_apply, val_main_v8_apply, val_main_v7_apply, val_main_v6_apply]
  have e : idx_main_v6 (idx_main_v7 (ix3 b t s)) = ix2 b t := by coords2
  rw [e, scores_ref, rowMax_ref]
  rfl

theorem attn_ref (b : Fin 4096) (t s : Fin 64) : val_main_v13 (F := Ideal) x0 (ix3 b t s) = attn (batchOf x0 b) t s := by
  rw [val_main_v13_apply, val_main_v12_apply, val_main_v11_apply, val_main_v10_apply, val_main_cst_2_apply, expo_ref]
  have e : idx_main_v11 (idx_main_v12 (ix3 b t s)) = ix2 b t := by coords2
  rw [e]
  unfold attn
  refine congrArg (Ideal.div _) ?_
  show Ideal.ofBits .f32 0x00000000#32 + _ = _
  rw [Ideal.ofBits_zero_f32, zero_add]
  refine Finset.sum_congr rfl fun k _ => ?_
  have e' : idx_main_v10 (ix2 b t) k = ix3 b t k := by coords3
  rw [e']
  exact expo_ref x0 b t k

theorem attnOut_ref (b : Fin 4096) (t : Fin 64) (d : Fin 128) : val_main_v14 (F := Ideal) x0 (ix3 b t d) = attnOut (batchOf x0 b) t d := by
  rw [val_main_v14_apply]
  unfold attnOut
  refine Finset.sum_congr rfl fun k _ => ?_
  have e1 : lidx_main_v14 (ix3 b t d) k = ix3 b t k := by coords3
  have e2 : ridx_main_v14 (ix3 b t d) k = ix3 b k d := by coords3
  rw [e1, e2, attn_ref]
  rfl

/-! ## Perceptron -/

variable (x1 : (⟨S128x8192, .f32⟩ : BufTy).Contents (Elt Ideal)) (x2 : (⟨S128, .f32⟩ : BufTy).Contents (Elt Ideal))
  (x3 : (⟨S8192x128, .f32⟩ : BufTy).Contents (Elt Ideal)) (x4 : (⟨S8192, .f32⟩ : BufTy).Contents (Elt Ideal))

theorem hidden_ref (b : Fin 4096) (j : Fin 128) :
    val_main_v21 (F := Ideal) x0 x1 x2 (ix2 b j) = hidden (batchOf x0 b) (fun j k => x1 (ix2 j k)) (fun j => x2 (ix1 j)) j := by
  rw [val_main_v21_apply, val_main_v20_apply, val_main_v17_apply, val_main_v19_apply, val_main_v18_apply,
    val_main_call0_v0_apply, val_main_call0_cst_apply]
  have eb : idx_main_v18 (idx_main_v19 (ix2 b j)) = ix1 j := by coords1
  rw [eb]
  unfold hidden
  refine congrArg (fun z => max (z + x2 (ix1 j)) (Ideal.ofBits .f32 0x00000000#32)) (Finset.sum_congr rfl fun k _ => ?_)
  rw [val_main_v15_apply, val_main_v16_apply]
  have e1 : idx_main_v15 (lidx_main_v17 (ix2 b j) k) = ix3 b (tok k) (feat k) := by
    funext a; apply Fin.ext
    have hk := k.isLt
    match a with
    | ⟨0, _⟩ => show (b.val * 8192 + k.val) / 8192 = b.val; omega
    | ⟨1, _⟩ => show (b.val * 8192 + k.val) / 128 % 64 = k.val / 128; omega
    | ⟨2, _⟩ => show (b.val * 8192 + k.val) % 128 = k.val % 128; omega
  have e2 : idx_main_v16 (ridx_main_v17 (ix2 b j) k) = ix2 j k := by coords2
  rw [e1, e2]
  rfl

theorem deep_ref (b : Fin 4096) (k : Fin 8192) :
    val_main_v26 (F := Ideal) x0 x1 x2 x3 x4 (ix2 b k)
      = deep (batchOf x0 b) (fun j k => x1 (ix2 j k)) (fun j => x2 (ix1 j)) (fun k j => x3 (ix2 k j)) (fun k => x4 (ix1 k)) k := by
  rw [val_main_v26_apply, val_main_v23_apply, val_main_v25_apply, val_main_v24_apply]
  have eb : idx_main_v24 (idx_main_v25 (ix2 b k)) = ix1 k := by coords1
  rw [eb]
  unfold deep
  refine congrArg (· + x4 (ix1 k)) (Finset.sum_congr rfl fun j _ => ?_)
  rw [val_main_v22_apply]
  have e1 : lidx_main_v23 (ix2 b k) j = ix2 b j := by coords2
  have e2 : idx_main_v22 (ridx_main_v23 (ix2 b k) j) = ix2 k j := by coords2
  rw [e1, e2, hidden_ref]

/-- Entry (b, t, d) of attention plus perceptron plus input is the residual sum of the layer on batch element `b`. -/
theorem resid_ref (b : Fin 4096) (t : Fin 64) (d : Fin 128) :
    val_main_v29 (F := Ideal) x0 x1 x2 x3 x4 (ix3 b t d)
      = resid (batchOf x0 b) (fun j k => x1 (ix2 j k)) (fun j => x2 (ix1 j)) (fun k j => x3 (ix2 k j)) (fun k => x4 (ix1 k)) t d := by
  rw [val_main_v29_apply, val_main_v28_apply, val_main_v27_apply, attnOut_ref]
  have e : idx_main_v27 (ix3 b t d) = ix2 b (flatPos t d) := by
    funext a; apply Fin.ext
    have ht := t.isLt
    have hd := d.isLt
    match a with
    | ⟨0, _⟩ => show ((b.val * 64 + t.val) * 128 + d.val) / 8192 = b.val; omega
    | ⟨1, _⟩ => show ((b.val * 64 + t.val) * 128 + d.val) % 8192 = t.val * 128 + d.val; omega
  rw [e, deep_ref]
  rfl

end Cert.Layer.ReferenceRow

end
-- ==== Proof.ReferenceNorm.lean ====
/-
  The reference's row normalisation read at an entry, and the reference's result as the layer on the whole batch.

  With `y` the sum of attention, perceptron and input, the reference divides each row sum of `y` by 128 (the mean),
  subtracts it, divides the row sum of squared deviations by 128 (the variance), and multiplies the deviation by the
  reciprocal root of variance plus a constant, then by the scale, and adds the shift.  Each host sum starts from a zero
  initial value.
-/
import proofs.«103078_j24764781429079_2_alg».proof.Proof.ReferenceRow
import proofs.«103078_j24764781429079_2_alg».proof.Proof.Whole

noncomputable section

namespace Cert.Layer.ReferenceNorm

open Cert.ReferenceIdeal Cert.ReferenceIdeal.Gen Cert.ReferenceIdeal.Read Idealize.ShloMosaic Idealize.ShloMosaic.ValueIdx Cert.Layer
open Cert.Layer.ReferenceRow

/-- Two indices of a shape of rank one are equal when the coordinate is, by computation. -/
local macro "coords1" : tactic => `(tactic| (funext a; apply Fin.ext; match a with | ⟨0, _⟩ => rfl))
/-- The same at rank two. -/
local macro "coords2" : tactic => `(tactic| (funext a; apply Fin.ext; match a with | ⟨0, _⟩ => rfl | ⟨1, _⟩ => rfl))
/-- The same at rank three. -/
local macro "coords3" : tactic => `(tactic| (funext a; apply Fin.ext; match a with | ⟨0, _⟩ => rfl | ⟨1, _⟩ => rfl | ⟨2, _⟩ => rfl))

variable (x0 : (⟨S4096x64x128, .f32⟩ : BufTy).Contents (Elt Ideal)) (x1 : (⟨S128x8192, .f32⟩ : BufTy).Contents (Elt Ideal))
  (x2 : (⟨S128, .f32⟩ : BufTy).Contents (Elt Ideal)) (x3 : (⟨S8192x128, .f32⟩ : BufTy).Contents (Elt Ideal))
  (x4 : (⟨S8192, .f32⟩ : BufTy).Contents (Elt Ideal))

/-- Attention plus perceptron plus input on batch element `b`. -/
def residOf (b : Fin 4096) : Fin 64 → Fin 128 → EReal :=
  resid (batchOf x0 b) (fun j k => x1 (ix2 j k)) (fun j => x2 (ix1 j)) (fun k j => x3 (ix2 k j)) (fun k => x4 (ix1 k))

theorem y_ref (b : Fin 4096) (t : Fin 64) (d : Fin 128) :
    val_main_v29 (F := Ideal) x0 x1 x2 x3 x4 (ix3 b t d) = residOf x0 x1 x2 x3 x4 b t d := resid_ref x0 x1 x2 x3 x4 b t d

theorem mean_ref (b : Fin 4096) (t : Fin 64) (z : Fin 1) :
    val_main_v33 (F := Ideal) x0 x1 x2 x3 x4 (ix3 b t z) = mean (residOf x0 x1 x2 x3 x4 b) t := by
  rw [val_main_v33_apply, val_main_v31_apply, val_main_v32_apply, val_main_cst_4_apply, val_main_v30_apply, val_main_cst_3_apply]
  have e : idx_main_v31 (ix3 b t z) = ix2 b t := by coords2
  rw [e]
  unfold mean
  refine congrArg (fun s => Ideal.div s (Ideal.ofBits .f32 0x43000000#32)) ?_
  show Ideal.ofBits .f32 0x00000000#32 + _ = _
  rw [Ideal.ofBits_zero_f32, zero_add]
  refine Finset.sum_congr rfl fun k _ => ?_
  have e' : idx_main_v30 (ix2 b t) k = ix3 b t k := by coords3
  rw [e']
  exact y_ref x0 x1 x2 x3 x4 b t k

theorem dev_ref (b : Fin 4096) (t : Fin 64) (k : Fin 128) :
    val_main_v35 (F := Ideal) x0 x1 x2 x3 x4 (ix3 b t k) = residOf x0 x1 x2 x3 x4 b t k - mean (residOf x0 x1 x2 x3 x4 b) t := by
  rw [val_main_v35_apply, val_main_v34_apply, y_ref]
  have e : idx_main_v34 (ix3 b t k) = ix3 b t (0 : Fin 1) := by coords3
  rw [e, mean_ref]
  rfl

theorem var_ref (b : Fin 4096) (t : Fin 64) (z : Fin 1) :
    val_main_v40 (F := Ideal) x0 x1 x2 x3 x4 (ix3 b t z) = var (residOf x0 x1 x2 x3 x4 b) t := by
  rw [val_main_v40_apply, val_main_v38_apply, val_main_v39_apply, val_main_cst_6_apply, val_main_v37_apply, val_main_cst_5_apply]
  have e : idx_main_v38 (ix3 b t z) = ix2 b t := by coords2
  rw [e]
  unfold var
  refine congrArg (fun s => Ideal.div s (Ideal.ofBits .f32 0x43000000#32)) ?_
  show Ideal.ofBits .f32 0x00000000#32 + _ = _
  rw [Ideal.ofBits_zero_f32, zero_add]
  refine Finset.sum_congr rfl fun k _ => ?_
  have e' : idx_main_v37 (ix2 b t) k = ix3 b t k := by coords3
  rw [e', val_main_v36_apply, dev_ref]
  rfl

variable (x5 x6 : (⟨S128, .f32⟩ : BufTy).Contents (Elt Ideal))

/-- Entry (b, t, d) of the reference's result is the layer on batch element `b`. -/
theorem layer_ref (b : Fin 4096) (t : Fin 64) (d : Fin 128) :
    val_main_v53 (F := Ideal) x0 x1 x2 x3 x4 x5 x6 (ix3 b t d)
      = layer (batchOf x0 b) (fun j k => x1 (ix2 j k)) (fun j => x2 (ix1 j)) (fun k j => x3 (ix2 k j)) (fun k => x4 (ix1 k))
          (fun d => x5 (ix1 d)) (fun d => x6 (ix1 d)) t d := by
  rw [val_main_v53_apply, val_main_v50_apply, val_main_v52_apply, val_main_v51_apply, val_main_v49_apply, val_main_v48_apply,
    val_main_v47_apply, val_main_v46_apply, val_main_v45_apply, val_main_v44_apply, val_main_v43_apply, val_main_cst_7_apply,
    val_main_v42_apply, val_main_v41_apply, y_ref]
  have e5 : idx_main_v48 (idx_main_v49 (ix3 b t d)) = ix1 d := by coords1
  have e6 : idx_main_v51 (idx_main_v52 (ix3 b t d)) = ix1 d := by coords1
  have e41 : idx_main_v41 (ix3 b t d) = ix3 b t (0 : Fin 1) := by coords3
  have e46 : idx_main_v46 (ix3 b t d) = ix3 b t (0 : Fin 1) := by coords3
  rw [e5, e6, e41, e46, mean_ref, var_ref]
  rfl

/-- The reference's result is the layer on the whole batch. -/
theorem result_eq : val_main_v53 (F := Ideal) x0 x1 x2 x3 x4 x5 x6 = whole x0 x1 x2 x3 x4 x5 x6 := by
  funext i
  obtain ⟨b, t, d, rfl⟩ : ∃ (b : Fin 4096) (t : Fin 64) (d : Fin 128), i = ix3 b t d := ⟨i 0, i 1, i 2, eq_ix3 i⟩
  rw [whole_apply]
  exact layer_ref x0 x1 x2 x3 x4 x5 x6 b t d

end Cert.Layer.ReferenceNorm

end
-- ==== Proof.lean ====
/-
  The kernel computes what the reference computes, on the extended reals.

  Both programs take an input of 4096 batch elements (each a 64 x 128 matrix), two weight matrices with their biases, and a
  scale and shift, and return for every batch element: its self-attention with itself (scaled scores, a softmax along each
  row, the weighted sum of rows), plus a two-layer perceptron of the flattened matrix, plus the matrix itself, each row
  of the sum then normalised, scaled and shifted (`Cert.Layer.layer` on one batch element, `Cert.Layer.whole` on the batch).

  The reference does this with whole-batch operations; read at an entry (b, t, d) each of them depends on batch element
  `b` alone, and the chain of readings ends at `layer` of that batch element (ReferenceRow, ReferenceNorm).  The kernel
  works through the batch 64 elements at a time with the weight matrices transposed beforehand; read at an entry (p, t, d)
  of a block, its body gives `layer` of element `p` of the block (KernelProducts, KernelRow, KernelNorm), the block of
  point `t` is elements 64 t .. 64 t + 63, and the 64 blocks tile the result (KernelArray).  The two sides meet term by
  term: every sum is over the same index set on both sides, products and sums are only ever regrouped by relabelling,
  and the changes of float format are the identity, so no entry needs to be finite and the precondition is not used.

  The three frames are the generated ones (the reference's is its generated run with the value dropped); the kernel's
  idealization rewrote nothing, so `preserves` has nothing to state.
-/
import proofs.«103078_j24764781429079_2_alg».proof.Defs
import proofs.«103078_j24764781429079_2_alg».proof.Proof.Gen.Kernel
import proofs.«103078_j24764781429079_2_alg».proof.Proof.Gen.Kernel.Skeleton
import proofs.«103078_j24764781429079_2_alg».proof.Proof.Gen.Kernel.Launch
import proofs.«103078_j24764781429079_2_alg».proof.Proof.Gen.Kernel.Points
import proofs.«103078_j24764781429079_2_alg».proof.Proof.Gen.Kernel.Frame
import proofs.«103078_j24764781429079_2_alg».proof.Proof.Gen.KernelIdeal
import proofs.«103078_j24764781429079_2_alg».proof.Proof.Gen.KernelIdeal.Skeleton
import proofs.«103078_j24764781429079_2_alg».proof.Proof.Gen.KernelIdeal.Launch
import proofs.«103078_j24764781429079_2_alg».proof.Proof.Gen.KernelIdeal.Points
import proofs.«103078_j24764781429079_2_alg».proof.Proof.Gen.KernelIdeal.Frame
import proofs.«103078_j24764781429079_2_alg».proof.Proof.Gen.ReferenceIdeal
import proofs.«103078_j24764781429079_2_alg».proof.Proof.Gen.Pre_finite_inputs
import proofs.«103078_j24764781429079_2_alg».proof.Proof.Gen.KernelIdeal.Value
import proofs.«103078_j24764781429079_2_alg».proof.Proof.Gen.ReferenceIdeal.Run
import proofs.«103078_j24764781429079_2_alg».proof.Proof.Gen.ReferenceIdeal.Read
import proofs.«103078_j24764781429079_2_alg».proof.Proof.KernelArray
import proofs.«103078_j24764781429079_2_alg».proof.Proof.ReferenceNorm
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run, with the value of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments, the kernel's result array and the reference's are both the layer on
    the whole batch of those arguments. -/
theorem algebraic : Cert.algebraic_KernelIdeal_ReferenceIdeal := by
  intro m ρ m' ρ' _ hagree
  refine ⟨fun c => Cert.Layer.KernelArray.result m c, Cert.Layer.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, Cert.Layer.ReferenceNorm.result_eq, (hagree c).1, (hagree c).2.1, (hagree c).2.2.1,
    (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
